-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S3x16384 : Shape := ⟨2, ![3, 16384]⟩
abbrev S16384x1 : Shape := ⟨2, ![16384, 1]⟩
abbrev S16x8x16384 : Shape := ⟨3, ![16, 8, 16384]⟩
abbrev S1024x3 : Shape := ⟨2, ![1024, 3]⟩
abbrev S3x2048 : Shape := ⟨2, ![3, 2048]⟩
abbrev S1024x1 : Shape := ⟨2, ![1024, 1]⟩
abbrev S1x8x2048 : Shape := ⟨3, ![1, 8, 2048]⟩
abbrev S1x2048 : Shape := ⟨2, ![1, 2048]⟩
abbrev S1024x2048 : Shape := ⟨2, ![1024, 2048]⟩
abbrev S1024 : Shape := ⟨1, ![1024]⟩
abbrev S2048 : Shape := ⟨1, ![2048]⟩
abbrev S8x2048 : Shape := ⟨2, ![8, 2048]⟩
abbrev S16x1x16384 : Shape := ⟨3, ![16, 1, 16384]⟩
abbrev S16x16384 : Shape := ⟨2, ![16, 16384]⟩
abbrev S_ : Shape := ⟨0, ![]⟩
abbrev S16384 : Shape := ⟨1, ![16384]⟩

abbrev nBuf : Space → Nat
  | .hbm => 20
  | .vmem => 9
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S3x16384, .f32⟩
  | .hbm, ⟨3, _⟩ => ⟨S16384x1, .f32⟩
  | .hbm, ⟨4, _⟩ => ⟨S16x8x16384, .f32⟩
  | .hbm, ⟨5, _⟩ => ⟨S16x1x16384, .f32⟩
  | .hbm, ⟨6, _⟩ => ⟨S16x16384, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S3x2048, .f32⟩
  | .local _ .vmem, ⟨3, _⟩ => ⟨S3x2048, .f32⟩
  | .local _ .vmem, ⟨4, _⟩ => ⟨S1024x1, .f32⟩
  | .local _ .vmem, ⟨5, _⟩ => ⟨S1024x1, .f32⟩
  | .local _ .vmem, ⟨6, _⟩ => ⟨S1x8x2048, .f32⟩
  | .local _ .vmem, ⟨7, _⟩ => ⟨S1x8x2048, .f32⟩
  | .local _ .vmem, ⟨8, _⟩ => ⟨S1024x1, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_10 : BitVec 32 := 0#32
  let v36 : BitVec 1 := Scalar.cmpi .ne v35 c0_i32_10
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S16384x3_S3x16384_1_0 : S16384x3.Transposes [1, 0] S3x16384
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x3_S1024x3_0_0 : ∀ a, (![0, 0] : Fin 2 → Nat) a + S1024x3.size a ≤ S1024x3.size a
  h_S1024x3 : 0 < S1024x3.numel
  slices_S1024x3_o0_0_S1024x1 : S1024x3.Slices ![0, 0] S1024x1
  inb_S3x2048_S1x2048_0_0 : ∀ a, (![0, 0] : Fin 2 → Nat) a + S1x2048.size a ≤ S3x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  slices_S1024x3_o0_1_S1024x1 : S1024x3.Slices ![0, 1] S1024x1
  inb_S3x2048_S1x2048_1_0 : ∀ a, (![1, 0] : Fin 2 → Nat) a + S1x2048.size a ≤ S3x2048.size a
  slices_S1024x3_o0_2_S1024x1 : S1024x3.Slices ![0, 2] S1024x1
  inb_S3x2048_S1x2048_2_0 : ∀ a, (![2, 0] : Fin 2 → Nat) a + S1x2048.size a ≤ S3x2048.size a
  reduces_S1024x2048_S1024 : S1024x2048.Reduces [1] S1024
  shapeCasts_S1024_S1024x1 : S1024.ShapeCasts S1024x1
  reduces_S1024x2048_S2048 : S1024x2048.Reduces [0] S2048
  shapeCasts_S2048_S1x2048 : S2048.ShapeCasts S1x2048
  broadcasts_S1x2048_S8x2048 : S1x2048.Broadcasts S8x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  shapeCasts_S8x2048_S1x8x2048 : S8x2048.ShapeCasts S1x8x2048
  slices_S16x8x16384_S16x1x16384_0_0_0 : S16x8x16384.Slices ![0, 0, 0] S16x1x16384
  shapeCasts_S16x1x16384_S16x16384 : S16x1x16384.ShapeCasts S16x16384
  reducesTo_S16x16384_S16384_d0 : S16x16384.ReducesTo [0] S16384
  h_S_ : 0 < S_.numel
  reducesTo_S16384x1_S_d0_1 : S16384x1.ReducesTo [0, 1] S_
  reducesTo_S16384_S_d0 : S16384.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2048.size a ≤ S3x16384.size a
  hwx0_1 : ∀ i : grid0.Coords, EltTy.bits .f32 = 32 ∨ (Rect.block (s := S3x16384) S3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x2048.size a ≤ S16x8x16384.size a
  hwx0_3 : ∀ i : grid0.Coords, EltTy.bits .f32 = 32 ∨ (Rect.block (s := S16x8x16384) S1x8x2048.size (cc0_transform_3 i) (hinb0_3 i)).WholeWords (EltTy.packing .f32)

variable [Facts₀]

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x8x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S3x16384 : Shape := ⟨2, ![3, 16384]⟩

abbrev nBuf : Space → Nat
  | .hbm => 53
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x3, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S3x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16384x3, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S16384x3, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S1x16384, .f32⟩
  | .hbm, ⟨35, _⟩ => ⟨S16384x16384, .f32⟩
  | .hbm, ⟨36, _⟩ => ⟨S16384x16384, .f32⟩
  | .hbm, ⟨37, _⟩ => ⟨S16384x16384, .f32⟩
  | .hbm, ⟨38, _⟩ => ⟨S3x16384, .f32⟩
  | .hbm, ⟨39, _⟩ => ⟨S16384x16384, .f32⟩
  | .hbm, ⟨40, _⟩ => ⟨S_, .f32⟩
  | .hbm, ⟨41, _⟩ => ⟨S16384x16384, .f32⟩
  | .hbm, ⟨42, _⟩ => ⟨S16384x16384, .f32⟩
  | .hbm, ⟨43, _⟩ => ⟨S16384x16384, .f32⟩
  | .hbm, ⟨44, _⟩ => ⟨S_, .f32⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_cst_9 : Ref sig .tc := ⟨.hbm, 46, rfl⟩
abbrev main_v34 : Ref sig .tc := ⟨.hbm, 47, rfl⟩
abbrev main_cst_10 : Ref sig .tc := ⟨.hbm, 48, rfl⟩
abbrev main_v35 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  transposes_S16384x1_S1x16384_1_0 : S16384x1.Transposes [1, 0] S1x16384
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x3_S3x16384_1_0 : S16384x3.Transposes [1, 0] S3x16384
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.Spec.lean ====
/-
  Two point clouds s, t of 16384 points in three coordinates, as arrays of shape [16384, 3] over the extended reals.

  The squared distance between point i of s and point j of t is written in two arrangements: as the sum of the three
  squared coordinate differences, (d0 + d1) + d2, and as the two squared norms minus twice the inner product.  For
  real entries the two agree: (a - b)^2 = a^2 + b^2 - 2ab, coordinate by coordinate.  On the extended reals the
  identity fails at the infinities, so it is stated for real entries only.

  The bidirectional nearest-neighbour loss is the mean over i of the least distance to any point j, plus the mean
  over j of the least distance to any point i, halved.  A least value over all 16384 indices is also the least of
  the least values over consecutive runs of indices, which is how a tiled computation reaches it.

  This module mentions no program.
-/
import Idealize.ShloMosaic.PureOps.Ideal
import Idealize.ShloMosaic.PureOps.Ideal.Laws
import Idealize.ShloMosaic.Lib.ValueIdx

noncomputable section

namespace Chamfer

open Idealize.ShloMosaic Idealize.ShloMosaic.ValueIdx

/-- The shape of a cloud: 16384 points, three coordinates each. -/
abbrev Pts : Shape := ⟨2, ![16384, 3]⟩

/-- The constants as the programs spell them: +0.0, 16384.0 and 2.0 in single precision. -/
abbrev zeroC : EReal := Ideal.ofBits .f32 0x00000000#32
abbrev countC : EReal := Ideal.ofBits .f32 0x46800000#32
abbrev twoC : EReal := Ideal.ofBits .f32 0x40000000#32

/-- The squared distance between point i of s and point j of t, as the sum of the squared coordinate
    differences, the first two added first. -/
def dist (s t : Pts.Idx → EReal) (i j : Fin 16384) : EReal :=
  ((s (ix2 i (0 : Fin 3)) - t (ix2 j (0 : Fin 3))) * (s (ix2 i (0 : Fin 3)) - t (ix2 j (0 : Fin 3)))
    + (s (ix2 i (1 : Fin 3)) - t (ix2 j (1 : Fin 3))) * (s (ix2 i (1 : Fin 3)) - t (ix2 j (1 : Fin 3))))
    + (s (ix2 i (2 : Fin 3)) - t (ix2 j (2 : Fin 3))) * (s (ix2 i (2 : Fin 3)) - t (ix2 j (2 : Fin 3)))

/-- The squared norm of point i, summed from the zero constant. -/
def normSq (s : Pts.Idx → EReal) (i : Fin 16384) : EReal :=
  zeroC + ∑ k : Fin 3, s (ix2 i k) * s (ix2 i k)

/-- The inner product of point i of s with point j of t. -/
def inner (s t : Pts.Idx → EReal) (i j : Fin 16384) : EReal :=
  ∑ k : Fin 3, s (ix2 i k) * t (ix2 j k)

/-- The squared distance as the two squared norms minus twice the inner product. -/
def distRef (s t : Pts.Idx → EReal) (i j : Fin 16384) : EReal :=
  (normSq s i + normSq t j) - twoC * inner s t i j

/-- The mean of 16384 values: their sum from the zero constant, divided by the count. -/
def mean (f : Fin 16384 → EReal) : EReal :=
  Ideal.div (zeroC + ∑ i : Fin 16384, f i) countC

/-- The loss over the sum-of-squared-differences distance. -/
def loss (s t : Pts.Idx → EReal) : EReal :=
  Ideal.div (mean (fun i => ⨅ j : Fin 16384, dist s t i j) + mean (fun j => ⨅ i : Fin 16384, dist s t i j)) twoC

/-- The loss over the norms-and-inner-product distance, the second direction computed with the clouds exchanged. -/
def lossRef (s t : Pts.Idx → EReal) : EReal :=
  Ideal.div (mean (fun i => ⨅ j : Fin 16384, distRef s t i j) + mean (fun j => ⨅ i : Fin 16384, distRef t s j i)) twoC

/-- The least of f over the indices below n. -/
def partMin (f : Fin 16384 → EReal) (n : ℕ) : EReal :=
  ⨅ j : Fin 16384, ⨅ _ : j.val < n, f j

/-! ## Least values over runs of indices -/

/-- A fold of min from the top element over all of Fin n is the infimum. -/
theorem fold_min_top {n : ℕ} (g : Fin n → EReal) :
    (Finset.univ : Finset (Fin n)).fold min ⊤ g = ⨅ k : Fin n, g k := by
  rw [← Finset.inf_univ_eq_iInf]
  rfl

/-- Below no index there is nothing: the least value is the top element. -/
theorem partMin_zero (f : Fin 16384 → EReal) : partMin f 0 = ⊤ := by
  simp [partMin]

/-- Taking in the next run of 2048 indices. -/
theorem partMin_step (f : Fin 16384 → EReal) (b : ℕ) (hb : b < 8) :
    partMin f ((b + 1) * 2048)
      = min (partMin f (b * 2048)) (⨅ q : Fin 2048, f ⟨b * 2048 + q.val, by have := q.isLt; omega⟩) := by
  unfold partMin
  apply le_antisymm
  · -- every index of either part lies below the new bound
    apply le_min
    · refine le_iInf fun j => le_iInf fun hj => ?_
      exact iInf₂_le j (by omega)
    · refine le_iInf fun q => ?_
      have hq := q.isLt
      exact iInf₂_le (⟨b * 2048 + q.val, by omega⟩ : Fin 16384) (by show b * 2048 + q.val < (b + 1) * 2048; omega)
  · -- an index below the new bound lies below the old one or in the new run
    refine le_iInf fun j => le_iInf fun hj => ?_
    by_cases h : j.val < b * 2048
    · exact (min_le_left _ _).trans (iInf₂_le j h)
    · refine (min_le_right _ _).trans ?_
      refine (iInf_le _ (⟨j.val - b * 2048, by omega⟩ : Fin 2048)).trans (le_of_eq ?_)
      congr 1
      apply Fin.ext
      show b * 2048 + (j.val - b * 2048) = j.val
      omega

/-- Below 16384 are all the indices. -/
theorem partMin_full (f : Fin 16384 → EReal) : partMin f 16384 = ⨅ j : Fin 16384, f j := by
  unfold partMin
  exact iInf_congr fun j => iInf_pos j.isLt

/-- The least over sixteen runs of 1024 indices, run by run. -/
theorem iInf_runs16 (f : Fin 16384 → EReal) :
    (⨅ b : Fin 16, ⨅ p : Fin 1024, f ⟨b.val * 1024 + p.val, by have := b.isLt; have := p.isLt; omega⟩) = ⨅ i : Fin 16384, f i := by
  apply le_antisymm
  · -- index i sits in run i / 1024 at place i % 1024
    refine le_iInf fun i => ?_
    have hi := i.isLt
    refine (iInf_le _ (⟨i.val / 1024, by omega⟩ : Fin 16)).trans ?_
    refine (iInf_le _ (⟨i.val % 1024, by omega⟩ : Fin 1024)).trans (le_of_eq ?_)
    congr 1
    apply Fin.ext
    show i.val / 1024 * 1024 + i.val % 1024 = i.val
    omega
  · exact le_iInf fun b => le_iInf fun p => iInf_le _ _

/-! ## The two arrangements of the squared distance agree on real entries -/

/-- 2.0 denotes the real number two. -/
theorem twoC_eq : twoC = ((2 : ℝ) : EReal) := by
  simp [twoC, Ideal.ofBits, Ideal.ieee, -EReal.coe_mul]; norm_num

theorem distRef_eq_dist (s t : Pts.Idx → EReal) (hs : ∀ x, ∃ r : ℝ, s x = (r : EReal)) (ht : ∀ x, ∃ r : ℝ, t x = (r : EReal))
    (i j : Fin 16384) : distRef s t i j = dist s t i j := by
  obtain ⟨a0, ha0⟩ := hs (ix2 i (0 : Fin 3))
  obtain ⟨a1, ha1⟩ := hs (ix2 i (1 : Fin 3))
  obtain ⟨a2, ha2⟩ := hs (ix2 i (2 : Fin 3))
  obtain ⟨b0, hb0⟩ := ht (ix2 j (0 : Fin 3))
  obtain ⟨b1, hb1⟩ := ht (ix2 j (1 : Fin 3))
  obtain ⟨b2, hb2⟩ := ht (ix2 j (2 : Fin 3))
  unfold distRef dist normSq inner
  rw [Fin.sum_univ_three, Fin.sum_univ_three, Fin.sum_univ_three, twoC_eq]
  simp only [zeroC, Ideal.ofBits_zero_f32, ha0, ha1, ha2, hb0, hb1, hb2]
  -- all six entries are real: (a - b)^2 = a^2 + b^2 - 2ab, coordinate by coordinate
  norm_cast
  ring

theorem distRef_swap_eq_dist (s t : Pts.Idx → EReal) (hs : ∀ x, ∃ r : ℝ, s x = (r : EReal)) (ht : ∀ x, ∃ r : ℝ, t x = (r : EReal))
    (i j : Fin 16384) : distRef t s j i = dist s t i j := by
  obtain ⟨a0, ha0⟩ := hs (ix2 i (0 : Fin 3))
  obtain ⟨a1, ha1⟩ := hs (ix2 i (1 : Fin 3))
  obtain ⟨a2, ha2⟩ := hs (ix2 i (2 : Fin 3))
  obtain ⟨b0, hb0⟩ := ht (ix2 j (0 : Fin 3))
  obtain ⟨b1, hb1⟩ := ht (ix2 j (1 : Fin 3))
  obtain ⟨b2, hb2⟩ := ht (ix2 j (2 : Fin 3))
  unfold distRef dist normSq inner
  rw [Fin.sum_univ_three, Fin.sum_univ_three, Fin.sum_univ_three, twoC_eq]
  simp only [zeroC, Ideal.ofBits_zero_f32, ha0, ha1, ha2, hb0, hb1, hb2]
  -- the same identity with the two clouds exchanged: it is symmetric in a and b
  norm_cast
  ring

/-- So on real entries the two losses are one number. -/
theorem lossRef_eq_loss (s t : Pts.Idx → EReal) (hs : ∀ x, ∃ r : ℝ, s x = (r : EReal)) (ht : ∀ x, ∃ r : ℝ, t x = (r : EReal)) :
    lossRef s t = loss s t := by
  unfold lossRef loss
  simp only [distRef_eq_dist s t hs ht, distRef_swap_eq_dist s t hs ht]

end Chamfer

end
-- ==== Proof.LibRealEntry.lean ====
/-
  An extended real whose absolute value is below +∞ is a real number.

  The test "|x| < +∞" on the extended reals, with the absolute value taken as `max x (−x)` and +∞ spelt as the
  single-precision pattern with all exponent bits set and no fraction bits, holds exactly of the real numbers: at `⊤`
  and at `⊥` the absolute value is `⊤`, which is not below itself.
-/
import Idealize.ShloMosaic.PureOps.Ideal

noncomputable section

namespace Cert.LibRealEntry

open Idealize.ShloMosaic

/-- The single-precision pattern with all exponent bits set and no fraction denotes +∞. -/
theorem ofBits_inf : Ideal.ofBits .f32 0x7F800000#32 = ⊤ := by
  simp [Ideal.ofBits, Ideal.ieee]

/-- An extended real whose absolute value compares below that pattern is a real number. -/
theorem real_of_abs_lt : ∀ x : EReal, Ideal.cmp .olt (max x (-x)) (Ideal.ofBits .f32 0x7F800000#32) = 1#1 →
    ∃ r : ℝ, x = (r : EReal) := by
  intro x
  rw [ofBits_inf]
  induction x using EReal.rec
  · intro h; simp [Ideal.cmp] at h
  · intro _; exact ⟨_, rfl⟩
  · intro h; simp [Ideal.cmp] at h

end Cert.LibRealEntry

end
-- ==== Proof.Finite.lean ====
/-
  The precondition says of each cloud that every entry has absolute value below plus infinity.  On the extended
  reals that holds exactly of the real numbers, so under it every entry of both clouds is a real number.
-/
import proofs.«143616_j31696858644903_2_alg».proof.Pre_finite_inputs
import proofs.«143616_j31696858644903_2_alg».proof.Proof.Gen.Pre_finite_inputs
import proofs.«143616_j31696858644903_2_alg».proof.Proof.LibRealEntry
import Idealize.ShloMosaic.Lib.ReduceAll
import Idealize.ShloMosaic.Lib.ValueIdx

noncomputable section

namespace Chamfer.Finite

open Idealize.ShloMosaic Idealize.ShloMosaic.ValueIdx

/-- Under the precondition every entry of both clouds is a real number. -/
theorem real_of_pre (x0 x1 : FVec Ideal Cert.Pre_finite_inputs.S16384x3 .f32)
    (h : Cert.Pre_finite_inputs.fn (F := Ideal) x0 x1 = fun _ => 1#1) :
    (∀ i, ∃ r : ℝ, x0 i = (r : EReal)) ∧ (∀ i, ∃ r : ℝ, x1 i = (r : EReal)) := by
  -- a shape of rank zero has one index
  haveI : Subsingleton Cert.Pre_finite_inputs.S_.Idx := ⟨fun a b => funext fun d => d.elim0⟩
  -- the precondition at its one index is a conjunction of two "for all entries" tests, one per cloud
  have h0 := congrFun h ValueIdx.ix0
  dsimp only [Cert.Pre_finite_inputs.fn] at h0
  obtain ⟨ha, hb⟩ := IntOp.andi_eq_one.1 h0
  constructor
  · -- a conjunction over all entries that came out true was true at entry i: |x0 i| is below plus infinity
    intro i
    have e := Host.reduce_andi_all _ _ _ _ _ ha i
    exact Cert.LibRealEntry.real_of_abs_lt (x0 i) e
  · intro i
    have e := Host.reduce_andi_all _ _ _ _ _ hb i
    exact Cert.LibRealEntry.real_of_abs_lt (x1 i) e

end Chamfer.Finite

end
-- ==== Proof.RefSide.lean ====
/-
  What the reference computes, read one operation at a time: its result is the loss over the
  norms-and-inner-product distance.

  The reference forms the full 16384 x 16384 array of squared distances from the two squared-norm columns and the
  matrix of inner products, takes the least entry of every row, averages those 16384 least values, does the same with
  the two clouds exchanged, adds the two averages and halves the sum.  Each step is read at one index: an entry of
  the distance array is the norms-and-inner-product distance of the two points; a row's least value, a fold of min
  from the top element over the row, is the infimum over the row; a sum over all indices of a one-axis array is the sum
  over the 16384 coordinates.
-/
import proofs.«143616_j31696858644903_2_alg».proof.Defs
import proofs.«143616_j31696858644903_2_alg».proof.Proof.Gen.ReferenceIdeal.Read
import proofs.«143616_j31696858644903_2_alg».proof.Proof.Spec
import proofs.«143616_j31696858644903_2_alg».proof.Proof.LibRealEntry

noncomputable section

namespace Chamfer.Ref

open Idealize.ShloMosaic Idealize.ShloMosaic.ValueIdx Idealize.SL.Sem

open Cert.ReferenceIdeal Cert.ReferenceIdeal.Gen Cert.ReferenceIdeal.Read

/-! ## One entry of each distance array -/

/-- Entry (i, j) of the first direction's distance array: point i of the first cloud against point j of the second. -/
theorem v14_at (x0 x1 : (⟨Cert.ReferenceIdeal.S16384x3, .f32⟩ : BufTy).Contents (Elt Ideal)) (i j : Fin 16384) :
    val_main_v14 (F := Ideal) x0 x1 (ix2 i j) = Chamfer.distRef x0 x1 i j := by
  have e1 : ∀ k : Fin 3, idx_main_v1 (idx_main_v2 (idx_main_v7 (ix2 i j))) k = ix2 i k := fun k =>
    funext fun a => Fin.ext (by match a with | ⟨0, _⟩ => rfl | ⟨1, _⟩ => rfl)
  have e2 : ∀ k : Fin 3, idx_main_v4 (idx_main_v5 (idx_main_v6 (idx_main_v8 (ix2 i j)))) k = ix2 j k := fun k =>
    funext fun a => Fin.ext (by match a with | ⟨0, _⟩ => rfl | ⟨1, _⟩ => rfl)
  have e3 : ∀ k : Fin 3, lidx_main_v11 (ix2 i j) k = ix2 i k := fun k =>
    funext fun a => Fin.ext (by match a with | ⟨0, _⟩ => rfl | ⟨1, _⟩ => rfl)
  have e4 : ∀ k : Fin 3, idx_main_v10 (ridx_main_v11 (ix2 i j) k) = ix2 j k := fun k =>
    funext fun a => Fin.ext (by match a with | ⟨0, _⟩ => rfl | ⟨1, _⟩ => rfl)
  rw [val_main_v14_apply, val_main_v9_apply, val_main_v13_apply, val_main_v7_apply, val_main_v2_apply, val_main_v1_apply,
    val_main_v8_apply, val_main_v6_apply, val_main_v5_apply, val_main_v4_apply, val_main_v12_apply, val_main_v11_apply,
    val_main_cst_apply, val_main_cst_0_apply, val_main_cst_1_apply]
  simp only [val_main_v0_apply, val_main_v3_apply, val_main_v10_apply, e1, e2, e3, e4, Ideal.subf_def, Ideal.addf_def,
    Ideal.mulf_def, Ideal.ofBits_def]
  rfl

/-- Entry (j, i) of the second direction's distance array: point j of the second cloud against point i of the first. -/
theorem v32_at (x0 x1 : (⟨Cert.ReferenceIdeal.S16384x3, .f32⟩ : BufTy).Contents (Elt Ideal)) (j i : Fin 16384) :
    val_main_v32 (F := Ideal) x0 x1 (ix2 j i) = Chamfer.distRef x1 x0 j i := by
  have e1 : ∀ k : Fin 3, idx_main_v19 (idx_main_v20 (idx_main_v25 (ix2 j i))) k = ix2 j k := fun k =>
    funext fun a => Fin.ext (by match a with | ⟨0, _⟩ => rfl | ⟨1, _⟩ => rfl)
  have e2 : ∀ k : Fin 3, idx_main_v22 (idx_main_v23 (idx_main_v24 (idx_main_v26 (ix2 j i)))) k = ix2 i k := fun k =>
    funext fun a => Fin.ext (by match a with | ⟨0, _⟩ => rfl | ⟨1, _⟩ => rfl)
  have e3 : ∀ k : Fin 3, lidx_main_v29 (ix2 j i) k = ix2 j k := fun k =>
    funext fun a => Fin.ext (by match a with | ⟨0, _⟩ => rfl | ⟨1, _⟩ => rfl)
  have e4 : ∀ k : Fin 3, idx_main_v28 (ridx_main_v29 (ix2 j i) k) = ix2 i k := fun k =>
    funext fun a => Fin.ext (by match a with | ⟨0, _⟩ => rfl | ⟨1, _⟩ => rfl)
  rw [val_main_v32_apply, val_main_v27_apply, val_main_v31_apply, val_main_v25_apply, val_main_v20_apply, val_main_v19_apply,
    val_main_v26_apply, val_main_v24_apply, val_main_v23_apply, val_main_v22_apply, val_main_v30_apply, val_main_v29_apply,
    val_main_cst_5_apply, val_main_cst_6_apply, val_main_cst_7_apply]
  simp only [val_main_v18_apply, val_main_v21_apply, val_main_v28_apply, e1, e2, e3, e4, Ideal.subf_def, Ideal.addf_def,
    Ideal.mulf_def, Ideal.ofBits_def]
  rfl

/-! ## The least value of a row -/

/-- Dropping the second axis of the distance array's shape leaves the one-axis shape. -/
theorem reduces1 : S16384x16384.Reduces [1] S16384 := by decide

/-- Row index i with column coordinate k inserted is the entry (i, k). -/
theorem lift_at (i k : Fin 16384) : reduces1.lift (ix1 i) k = ix2 i k :=
  funext fun a => Fin.ext (by match a with | ⟨0, _⟩ => rfl | ⟨1, _⟩ => rfl)

/-- A minimum reduction along the rows of any 16384 x 16384 array, started from the pattern of +infinity, is at row i
    the infimum of that row: the fold of min from the top element over the row's 16384 entries. -/
theorem min_rows (y : S16384x16384.Idx → Ideal .f32) (init : S_.Idx → Ideal .f32)
    (hinit : init (Shape.Idx.first h_S_) = Ideal.ofBits .f32 0x7F800000#32) (i : Fin 16384) :
    Host.reduce (FloatOps.minimumf (F := Ideal) (φ := .f32)) y init reducesTo_S16384x16384_S16384_d1 h_S_ (ix1 i)
      = ⨅ j : Fin 16384, y (ix2 i j) := by
  rw [Host.reduce_eq_fold_single (FloatOps.minimumf (F := Ideal) (φ := .f32)) y init reducesTo_S16384x16384_S16384_d1
    reduces1 h_S_ (ix1 i), hinit, Cert.LibRealEntry.ofBits_inf]
  exact (Chamfer.fold_min_top (n := 16384) (fun k : Fin 16384 => y (reduces1.lift (ix1 i) k))).trans
    (iInf_congr fun k => congrArg y (lift_at i k))

/-- The first direction: the least distance from point i of the first cloud to the second cloud. -/
theorem v15_at (x0 x1 : (⟨Cert.ReferenceIdeal.S16384x3, .f32⟩ : BufTy).Contents (Elt Ideal)) (i : Fin 16384) :
    val_main_v15 (F := Ideal) x0 x1 (ix1 i) = ⨅ j : Fin 16384, Chamfer.distRef x0 x1 i j := by
  unfold val_main_v15
  rw [min_rows (val_main_v14 (F := Ideal) x0 x1) (val_main_cst_2 (F := Ideal)) rfl i]
  exact iInf_congr fun j => v14_at x0 x1 i j

/-- The second direction: the least distance from point j of the second cloud to the first cloud. -/
theorem v33_at (x0 x1 : (⟨Cert.ReferenceIdeal.S16384x3, .f32⟩ : BufTy).Contents (Elt Ideal)) (j : Fin 16384) :
    val_main_v33 (F := Ideal) x0 x1 (ix1 j) = ⨅ i : Fin 16384, Chamfer.distRef x1 x0 j i := by
  unfold val_main_v33
  rw [min_rows (val_main_v32 (F := Ideal) x0 x1) (val_main_cst_8 (F := Ideal)) rfl j]
  exact iInf_congr fun i => v32_at x0 x1 j i

/-! ## The sums over all 16384 least values -/

/-- The indices of the one-axis shape are its 16384 coordinates. -/
def idx1Equiv : (⟨1, ![16384]⟩ : Shape).Idx ≃ Fin 16384 where
  toFun j := j 0
  invFun a := ix1 a
  left_inv j := (eq_ix1 j).symm
  right_inv _ := rfl

/-- So a sum over all its indices is the sum over the coordinates. -/
theorem sum_idx1 (f : (⟨1, ![16384]⟩ : Shape).Idx → EReal) : ∑ j, f j = ∑ a : Fin 16384, f (ix1 a) :=
  (Equiv.sum_comp idx1Equiv.symm f).symm

theorem v16_at (x0 x1 : (⟨Cert.ReferenceIdeal.S16384x3, .f32⟩ : BufTy).Contents (Elt Ideal)) (i0 : S_.Idx) :
    val_main_v16 (F := Ideal) x0 x1 i0 = Chamfer.zeroC + ∑ i : Fin 16384, ⨅ j : Fin 16384, Chamfer.distRef x0 x1 i j := by
  rw [val_main_v16_apply, val_main_cst_3_apply, Ideal.ofBits_def, sum_idx1]
  simp only [v15_at]

theorem v34_at (x0 x1 : (⟨Cert.ReferenceIdeal.S16384x3, .f32⟩ : BufTy).Contents (Elt Ideal)) (i0 : S_.Idx) :
    val_main_v34 (F := Ideal) x0 x1 i0 = Chamfer.zeroC + ∑ j : Fin 16384, ⨅ i : Fin 16384, Chamfer.distRef x1 x0 j i := by
  rw [val_main_v34_apply, val_main_cst_9_apply, Ideal.ofBits_def, sum_idx1]
  simp only [v33_at]

/-! ## The two means, added and halved -/

/-- The reference's result, as a function of the two clouds, is the loss over the norms-and-inner-product distance. -/
theorem ref_value (x0 x1 : (⟨Cert.ReferenceIdeal.S16384x3, .f32⟩ : BufTy).Contents (Elt Ideal)) :
    Cert.ReferenceIdeal.Read.val_main_v37 (F := Ideal) x0 x1 = fun _ => Chamfer.lossRef x0 x1 := by
  funext i0
  rw [val_main_v37_apply, val_main_v36_apply, val_main_v17_apply, val_main_v35_apply, v16_at, v34_at,
    val_main_cst_4_apply, val_main_cst_10_apply, val_main_cst_11_apply]
  simp only [Ideal.hostDivf_def, Ideal.addf_def, Ideal.ofBits_def]
  rfl

end Chamfer.Ref

end
-- ==== Proof.KBlocks.lean ====
/-
  Which entries of the two clouds a grid point's input blocks hold.

  Grid point number t stands for block row t / 8 and block column t mod 8.  Its block of the first cloud is rows
  (t / 8) * 1024 onwards; its block of the second cloud, which the program lays out transposed as three coordinate
  rows, is columns (t mod 8) * 2048 onwards.
-/
import proofs.«143616_j31696858644903_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Chamfer.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The grid has 128 points. -/
theorem point_lt (t : Fin cfg0.N) : t.val < 128 := lt_of_lt_of_eq t.isLt (show cfg0.N = 128 from N_0)

/-- The row of the first cloud under row p of point t's block. -/
def rowOf (t : Fin cfg0.N) (p : Fin 1024) : Fin 16384 :=
  ⟨t.val / 8 * 1024 + p.val, by have := point_lt t; have := p.isLt; omega⟩
/-- The point of the second cloud under column q of point t's block. -/
def colOf (t : Fin cfg0.N) (q : Fin 2048) : Fin 16384 :=
  ⟨t.val % 8 * 2048 + q.val, by have := q.isLt; omega⟩

/-- The block indices of the four windows at point t, decided once over the grid. -/
theorem index0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem index1 : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)
theorem index2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem index3 : ∀ t : Fin cfg0.N, win0_3.index t (0 : Fin 3) = t.val / 8 ∧ win0_3.index t (1 : Fin 3) = 0
    ∧ win0_3.index t (2 : Fin 3) = t.val % 8 :=
  (by decide +kernel : ∀ t : Fin grid0.N, win0_3.index t (0 : Fin 3) = t.val / 8 ∧ win0_3.index t (1 : Fin 3) = 0
    ∧ win0_3.index t (2 : Fin 3) = t.val % 8)

/-- The second window's array, as the tiled computation finds it, is the second cloud transposed. -/
theorem entry_transposed (c : Dev nD) :
    (V m c main_v0 : FVec F S3x16384 .f32)
      = transpose S3x16384 [1, 0] (m ((c : Thread nD τ).loc main_arg1)) Gen.transposes_S16384x3_S3x16384_1_0 := by
  show StableHlo.after hostOps0 (fun b => m (c, b)) (Proc.devRef .tc main_v0) = _
  after_results

/-- Row p, coordinate k of point t's block of the first cloud. -/
theorem iblk0_apply (c : Dev nD) (t : Fin cfg0.N) (p : Fin 1024) (k : Fin 3) :
    (iblk m c 0 t : Vec F S1024x3 .f32) (ix2 p k)
      = (m ((c : Thread nD τ).loc main_arg0) : FVec F S16384x3 .f32) (ix2 (rowOf t p) k) := by
  unfold iblk
  rw [View.read_apply]
  show V m c main_arg0 (((cfg0.win 0).blk t).view.emb (ix2 p k)) = _
  rw [V_main_arg0]
  refine congrArg _ (funext fun a => Fin.ext ?_)
  match a with
  | ⟨0, _⟩ => show win0_0.index t 0 * 1024 + 1 * p.val = t.val / 8 * 1024 + p.val; rw [(index0 t).1]; omega
  | ⟨1, _⟩ => show win0_0.index t 1 * 3 + 1 * k.val = k.val; rw [(index0 t).2]; omega

/-- Coordinate row k, column q of point t's block of the second cloud. -/
theorem iblk1_apply (c : Dev nD) (t : Fin cfg0.N) (k : Fin 3) (q : Fin 2048) :
    (iblk m c 1 t : Vec F S3x2048 .f32) (ix2 k q)
      = (m ((c : Thread nD τ).loc main_arg1) : FVec F S16384x3 .f32) (ix2 (colOf t q) k) := by
  unfold iblk
  rw [View.read_apply]
  show V m c main_v0 (((cfg0.win 1).blk t).view.emb (ix2 k q)) = _
  have e : ((cfg0.win 1).blk t).view.emb (ix2 k q) = (ix2 k (colOf t q) : S3x16384.Idx) :=
    funext fun a => Fin.ext (by
      match a with
      | ⟨0, _⟩ => show win0_1.index t 0 * 3 + 1 * k.val = k.val; rw [(index1 t).1]; omega
      | ⟨1, _⟩ => show win0_1.index t 1 * 2048 + 1 * q.val = t.val % 8 * 2048 + q.val; rw [(index1 t).2]; omega)
  rw [e, entry_transposed]
  exact transpose_ix2_apply _ _ k (colOf t q)

end Chamfer.Blocks

end
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibUnitRow.lean ====
/-
  A vector laid out as a one-row matrix, read at an index.

  A `[a]` vector cast to a `[1, a]` array (a reshape that adds a leading unit axis) read at `(u, j)` is the vector's
  entry `j`: both positions are the `j`-th in row-major order, the row coordinate `u` of the unit axis being 0.
-/
import Idealize.ShloMosaic.Lib.Pipeline.Value
import Idealize.ShloMosaic.Lib.ValueIdx

noncomputable section

namespace Cert.LibUnitRow

open Idealize.ShloMosaic Idealize.ShloMosaic.ValueIdx

/-- An `[a]` vector cast to a `[1, a]` row, read at `(u, j)`: the vector's entry `j`. -/
theorem unitRow_apply {a : ℕ} {α : Type} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h (ix2 u j) (ix1 j) (by
    rw [Shape.rowMajor_val_one, Shape.rowMajor_val_two]
    show j.val = u.val * a + j.val
    have hu : u.val = 0 := by have := u.isLt; omega
    rw [hu]
    omega)

end Cert.LibUnitRow

end
-- ==== Proof.LibUnitAxis.lean ====
/-
  A leading axis of extent one, at rank three.

  A [1, a, b] block viewed as an [a, b] array reads `(p, k)` at the block's entry `(0, p, k)`, and an [a, b] array
  viewed as a [1, a, b] block reads `(z, p, q)` at the array's entry `(p, q)`: the two reshapes every block of a
  rank-3 array cut one slab at a time goes through.  Stated at coordinates, for any element type.
-/
import Idealize.ShloMosaic.Lib.Pipeline.Value
import Idealize.ShloMosaic.Lib.ValueIdx

noncomputable section

namespace Cert.LibUnitAxis

open Idealize.ShloMosaic Idealize.ShloMosaic.ValueIdx

/-- A [1, a, b] block viewed as [a, b] reads `(p, k)` at `(0, p, k)`. -/
theorem dropUnit_apply {α : Type} {a b : ℕ} (v : (⟨3, ![1, a, b]⟩ : Shape).Idx → α)
    (h : (⟨3, ![1, a, b]⟩ : Shape).ShapeCasts ⟨2, ![a, b]⟩) (p : Fin a) (k : Fin b) :
    shapeCast ⟨2, ![a, b]⟩ v h (ix2 p k) = v (ix3 0 p k) :=
  (shapeCast_dropUnit_apply ![a, b] v h (ix2 p k)).trans (congrArg v (funext fun d => by
    match d with
    | ⟨0, _⟩ => rfl
    | ⟨1, _⟩ => rfl
    | ⟨2, _⟩ => rfl))

/-- An [a, b] array viewed as a [1, a, b] block reads `(z, p, q)` at `(p, q)`. -/
theorem addUnit_apply {α : Type} {a b : ℕ} (v : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ v h (ix3 z p q) = v (ix2 p q) :=
  (shapeCast_addUnit_apply ![a, b] v h (ix3 z p q)).trans (congrArg v (funext fun d => by
    match d with
    | ⟨0, _⟩ => rfl
    | ⟨1, _⟩ => rfl))

end Cert.LibUnitAxis

end
-- ==== Proof.KPay.lean ====
/-
  The kernel body's four stored values, read at an index on the extended reals.

  From a block x of 1024 points of the first cloud and the three coordinate rows r0, r1, r2 of a block of 2048 points
  of the second, the body forms the 1024 by 2048 table of squared distances; it keeps, per row, the least entry seen
  so far, and stores, per column, the least entry of the table, repeated down eight rows.
-/
import proofs.«143616_j31696858644903_2_alg».proof.Proof.Gen.KernelIdeal.Skeleton
import proofs.«143616_j31696858644903_2_alg».proof.Proof.Spec
import proofs.«143616_j31696858644903_2_alg».proof.Proof.LibRealEntry
import proofs.«143616_j31696858644903_2_alg».proof.Proof.LibUnitColumn
import proofs.«143616_j31696858644903_2_alg».proof.Proof.LibColumn
import proofs.«143616_j31696858644903_2_alg».proof.Proof.LibUnitRow
import proofs.«143616_j31696858644903_2_alg».proof.Proof.LibUnitAxis
import Idealize.ShloMosaic.Lib.Pipeline.Value
import Idealize.ShloMosaic.Lib.ValueLayout

noncomputable section

namespace Chamfer.Pay

open Idealize.ShloMosaic Idealize.ShloMosaic.ValueIdx Cert.KernelIdeal Cert.KernelIdeal.Gen

/-! ## A minimum along one axis of a matrix, read at an index -/

/-- A minimum along the second axis of an [a, b] array, read at entry p: the fold of min over the entries (p, k) of
    row p, from what the accumulator's pattern denotes. -/
theorem rowMin_apply {a b : ℕ} (src : FVec Ideal ⟨2, ![a, b]⟩ .f32) (acc : BitVec 32)
    (h : (⟨2, ![a, b]⟩ : Shape).Reduces [(1 : Fin 2)] ⟨1, ![a]⟩) (hφ : FKind.Formats .f32)
    (hacc : acc = FKind.minimumf.neutral .f32 hφ) (p : Fin a) :
    multiReduction .minimumf [(1 : Fin 2)] ⟨1, ![a]⟩ src acc h hφ hacc (ix1 p)
      = (Finset.univ : Finset (Fin b)).fold min (Ideal.ofBits .f32 acc) (fun k => src (ix2 p k)) :=
  ((multiReduction_minimumf_eq_fold src acc h hφ hacc (ix1 p)).trans
      (h.fold_filter_drop_single _ _ src (ix1 p))).trans
    (Finset.fold_congr fun k _ => congrArg src (funext fun c => Fin.ext (by
      match c with
      | ⟨0, _⟩ => rfl
      | ⟨1, _⟩ => rfl)))

/-- A minimum along the first axis of an [a, b] array, read at entry q: the fold of min over the entries (k, q) of
    column q, from what the accumulator's pattern denotes. -/
theorem colMin_apply {a b : ℕ} (src : FVec Ideal ⟨2, ![a, b]⟩ .f32) (acc : BitVec 32)
    (h : (⟨2, ![a, b]⟩ : Shape).Reduces [(0 : Fin 2)] ⟨1, ![b]⟩) (hφ : FKind.Formats .f32)
    (hacc : acc = FKind.minimumf.neutral .f32 hφ) (q : Fin b) :
    multiReduction .minimumf [(0 : Fin 2)] ⟨1, ![b]⟩ src acc h hφ hacc (ix1 q)
      = (Finset.univ : Finset (Fin a)).fold min (Ideal.ofBits .f32 acc) (fun k => src (ix2 k q)) :=
  ((multiReduction_minimumf_eq_fold src acc h hφ hacc (ix1 q)).trans
      (h.fold_filter_drop_single _ _ src (ix1 q))).trans
    (Finset.fold_congr fun k _ => congrArg src (funext fun c => Fin.ext (by
      match c with
      | ⟨0, _⟩ => rfl
      | ⟨1, _⟩ => rfl)))

/-! ## The two operands of a coordinate difference, read at an index -/

/-- Column o of the block of points, repeated across the 2048 columns of the table: at (p, q) it is coordinate k = o
    of point p. -/
theorem coord_apply (x : Vec Ideal S1024x3 .f32) (o : ℕ) (h : S1024x3.Slices ![0, o] S1024x1)
    (hb : S1024x1.Broadcasts S1024x2048) (p : Fin 1024) (q : Fin 2048) (k : Fin 3) (hk : k.val = o) :
    broadcastTo S1024x2048 (extractStridedSlice S1024x1 ![0, o] x h) hb (ix2 p q) = x (ix2 p k) :=
  (Cert.LibColumn.broadcastTo_a1_ab_apply _ hb p q).trans
    (slice2_axis1_apply o x h p (0 : Fin 1) k (by rw [hk]; rfl))

/-- A coordinate row of the second block, repeated down the 1024 rows of the table: at (p, q) it is the row's
    entry q. -/
theorem row_apply (r : Vec Ideal S1x2048 .f32) (hc : S1x2048.ShapeCasts S1x2048) (hb : S1x2048.Broadcasts S1024x2048)
    (p : Fin 1024) (q : Fin 2048) :
    broadcastTo S1024x2048 (shapeCast S1x2048 r hc) hb (ix2 p q) = r (ix2 (0 : Fin 1) q) :=
  (broadcastTo_1b_ab_apply _ hb p q).trans (congrFun (shapeCast_self r hc) (ix2 (0 : Fin 1) q))

/-- The value the running minimum is reset to: plus infinity in every row. -/
theorem pay2_apply (p : Fin 1024) (u : Fin 1) : k0_pay2 (F := Ideal) (ix2 p u) = ⊤ := by
  unfold k0_pay2
  refine (congrFun (shapeCast_self _ _) (ix2 p u)).trans ?_
  exact Cert.LibRealEntry.ofBits_inf

/-- The table of squared distances at row p, column q. -/
theorem pay3_apply (x : Vec Ideal S1024x3 .f32) (r0 r1 r2 : Vec Ideal S1x2048 .f32) (p : Fin 1024) (q : Fin 2048) :
    k0_pay3 x r0 r1 r2 (ix2 p q)
      = ((x (ix2 p (0 : Fin 3)) - r0 (ix2 (0 : Fin 1) q)) * (x (ix2 p (0 : Fin 3)) - r0 (ix2 (0 : Fin 1) q))
          + (x (ix2 p (1 : Fin 3)) - r1 (ix2 (0 : Fin 1) q)) * (x (ix2 p (1 : Fin 3)) - r1 (ix2 (0 : Fin 1) q)))
          + (x (ix2 p (2 : Fin 3)) - r2 (ix2 (0 : Fin 1) q)) * (x (ix2 p (2 : Fin 3)) - r2 (ix2 (0 : Fin 1) q)) := by
  have d0 := congrArg₂ (fun a b : EReal => a - b)
    (coord_apply x 0 slices_S1024x3_o0_0_S1024x1 broadcasts_S1024x1_S1024x2048 p q 0 rfl)
    (row_apply r0 shapeCasts_S1x2048_S1x2048 broadcasts_S1x2048_S1024x2048 p q)
  have d1 := congrArg₂ (fun a b : EReal => a - b)
    (coord_apply x 1 slices_S1024x3_o0_1_S1024x1 broadcasts_S1024x1_S1024x2048 p q 1 rfl)
    (row_apply r1 shapeCasts_S1x2048_S1x2048 broadcasts_S1x2048_S1024x2048 p q)
  have d2 := congrArg₂ (fun a b : EReal => a - b)
    (coord_apply x 2 slices_S1024x3_o0_2_S1024x1 broadcasts_S1024x1_S1024x2048 p q 2 rfl)
    (row_apply r2 shapeCasts_S1x2048_S1x2048 broadcasts_S1x2048_S1024x2048 p q)
  unfold k0_pay3
  exact congrArg₂ (fun a b : EReal => a + b)
    (congrArg₂ (fun a b : EReal => a + b)
      (congrArg₂ (fun a b : EReal => a * b) d0 d0)
      (congrArg₂ (fun a b : EReal => a * b) d1 d1))
    (congrArg₂ (fun a b : EReal => a * b) d2 d2)

/-- The new running minimum of row p: the old one against the least entry of row p of the table. -/
theorem pay4_apply (x : Vec Ideal S1024x3 .f32) (r0 r1 r2 : Vec Ideal S1x2048 .f32) (acc : Vec Ideal S1024x1 .f32)
    (p : Fin 1024) (u : Fin 1) :
    k0_pay4 x r0 r1 r2 acc (ix2 p u)
      = min (acc (ix2 p u)) (⨅ q : Fin 2048, k0_pay3 x r0 r1 r2 (ix2 p q)) := by
  unfold k0_pay4
  refine (congrFun (shapeCast_self _ _) (ix2 p u)).trans ?_
  refine congrArg (min (acc (ix2 p u))) ?_
  refine (Cert.LibUnitColumn.shapeCast_a_a1_apply _ _ p u).trans ?_
  refine (rowMin_apply _ _ _ _ _ p).trans ?_
  rw [Cert.LibRealEntry.ofBits_inf]
  exact Chamfer.fold_min_top _

/-- The column minima, repeated down the eight rows: at any row r, column q holds the least entry of column q. -/
theorem pay1_apply (v : FVec Ideal S1024x2048 .f32) (z : Fin 1) (r : Fin 8) (q : Fin 2048) :
    k0_pay1 v (ix3 z r q) = ⨅ p : Fin 1024, v (ix2 p q) := by
  unfold k0_pay1
  refine (Cert.LibUnitAxis.addUnit_apply _ _ z r q).trans ?_
  refine (broadcastTo_1b_ab_apply _ _ r q).trans ?_
  refine (congrFun (shapeCast_self _ _) (ix2 (0 : Fin 1) q)).trans ?_
  refine (Cert.LibUnitRow.unitRow_apply _ _ (0 : Fin 1) q).trans ?_
  refine (colMin_apply _ _ _ _ _ q).trans ?_
  rw [Cert.LibRealEntry.ofBits_inf]
  exact Chamfer.fold_min_top _

end Chamfer.Pay

end
-- ==== Proof.KPieces.lean ====
/-
  What the kernel body leaves behind at one grid point, as values.

  At a point the body holds a block x0 of 1024 points of the first cloud and a block x1 of 2048 points of the second,
  laid out as three coordinate rows.  It leaves, in the scratch column, the old running minima taken against the row
  minima of the block's distance table (at the first point of a row of the grid the old minima are plus infinity); in
  the second output, the column minima of the table; and, at the last point of a row of the grid, the scratch column
  copied to the first output.
-/
import proofs.«143616_j31696858644903_2_alg».proof.Proof.Gen.KernelIdeal.Frame
import Idealize.ShloMosaic.Lib.Pipeline.Value
import Idealize.ShloMosaic.Lib.ValueIdx
import Idealize.ShloMosaic.Lib.Tactic

noncomputable section

namespace Chamfer.Pieces

open Idealize.ShloMosaic Idealize.ShloMosaic.TcCoe Idealize.ShloMosaic.ValueIdx Idealize.SL.Sem
open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The three coordinate rows of a block of the second cloud, as the body loads them. -/
abbrev row0 (x1 : Vec F S3x2048 .f32) : Vec F S1x2048 .f32 :=
  View.ld x1 (Rect.unit (s := S3x2048) ![0, 0] S1x2048.size Gen.inb_S3x2048_S1x2048_0_0)
abbrev row1 (x1 : Vec F S3x2048 .f32) : Vec F S1x2048 .f32 :=
  View.ld x1 (Rect.unit (s := S3x2048) ![1, 0] S1x2048.size Gen.inb_S3x2048_S1x2048_1_0)
abbrev row2 (x1 : Vec F S3x2048 .f32) : Vec F S1x2048 .f32 :=
  View.ld x1 (Rect.unit (s := S3x2048) ![2, 0] S1x2048.size Gen.inb_S3x2048_S1x2048_2_0)

/-- Row k of the block, read at column q, is the block's entry (k, q). -/
theorem row0_apply (x1 : Vec F S3x2048 .f32) (u : Fin 1) (q : Fin 2048) :
    row0 x1 (ix2 u q) = x1 (ix2 (0 : Fin 3) q) := by
  show x1 ((Rect.unit (s := S3x2048) ![0, 0] S1x2048.size Gen.inb_S3x2048_S1x2048_0_0).emb (ix2 u q)) = _
  refine congrArg x1 (funext fun a => Fin.ext ?_)
  rw [Rect.emb_apply]
  match a with
  | ⟨0, _⟩ => show 0 + 1 * u.val = 0; omega
  | ⟨1, _⟩ => show 0 + 1 * q.val = q.val; omega
theorem row1_apply (x1 : Vec F S3x2048 .f32) (u : Fin 1) (q : Fin 2048) :
    row1 x1 (ix2 u q) = x1 (ix2 (1 : Fin 3) q) := by
  show x1 ((Rect.unit (s := S3x2048) ![1, 0] S1x2048.size Gen.inb_S3x2048_S1x2048_1_0).emb (ix2 u q)) = _
  refine congrArg x1 (funext fun a => Fin.ext ?_)
  rw [Rect.emb_apply]
  match a with
  | ⟨0, _⟩ => show 1 + 1 * u.val = 1; omega
  | ⟨1, _⟩ => show 0 + 1 * q.val = q.val; omega
theorem row2_apply (x1 : Vec F S3x2048 .f32) (u : Fin 1) (q : Fin 2048) :
    row2 x1 (ix2 u q) = x1 (ix2 (2 : Fin 3) q) := by
  show x1 ((Rect.unit (s := S3x2048) ![2, 0] S1x2048.size Gen.inb_S3x2048_S1x2048_2_0).emb (ix2 u q)) = _
  refine congrArg x1 (funext fun a => Fin.ext ?_)
  rw [Rect.emb_apply]
  match a with
  | ⟨0, _⟩ => show 2 + 1 * u.val = 2; omega
  | ⟨1, _⟩ => show 0 + 1 * q.val = q.val; omega

/-! ## The first point of a row of the grid: the running minima start from plus infinity -/

theorem scratch_A (c : Dev nD) (i : grid0.Coords) (arg2 : Memref sig .tc .vmem S1024x3 .f32) (harg2 : arg2.IsWhole) (arg3 : Memref sig .tc .vmem S3x2048 .f32) (harg3 : arg3.IsWhole) (arg4 : Memref sig .tc .vmem S1024x1 .f32) (harg4 : arg4.IsWhole) (arg5 : Memref sig .tc .vmem S1x8x2048 .f32) (harg5 : arg5.IsWhole) (arg6 : Memref sig .tc .vmem S1024x1 .f32) (harg6 : arg6.IsWhole) (hc0 : cond0_0 i) (hc1 : ¬cond0_1 i)
    (x0 : Vec F S1024x3 .f32) (x1 : Vec F S3x2048 .f32) :
    sout0_A_0 c i arg2 harg2 arg3 harg3 arg4 harg4 arg5 harg5 arg6 harg6 hc0 hc1 x0 x1 = k0_pay4 x0 (row0 x1) (row1 x1) (row2 x1) (k0_pay2 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1024x1) zero2, View.readCov_unit_zero (S := S1024x1) _ zero2]
  simp only [View.readAt_eq_ld, harg2.read_unread, harg3.read_unread, harg6.read_unread,
    View.ld_unit_zero (S := S1024x3) zero2, View.ld_unit_zero (S := S1024x1) zero2]

theorem out3_A (c : Dev nD) (i : grid0.Coords) (arg2 : Memref sig .tc .vmem S1024x3 .f32) (harg2 : arg2.IsWhole) (arg3 : Memref sig .tc .vmem S3x2048 .f32) (harg3 : arg3.IsWhole) (arg4 : Memref sig .tc .vmem S1024x1 .f32) (harg4 : arg4.IsWhole) (arg5 : Memref sig .tc .vmem S1x8x2048 .f32) (harg5 : arg5.IsWhole) (arg6 : Memref sig .tc .vmem S1024x1 .f32) (harg6 : arg6.IsWhole) (hc0 : cond0_0 i) (hc1 : ¬cond0_1 i)
    (x0 : Vec F S1024x3 .f32) (x1 : Vec F S3x2048 .f32) :
    out0_A_3 c i arg2 harg2 arg3 harg3 arg4 harg4 arg5 harg5 arg6 harg6 hc0 hc1 x0 x1 = k0_pay1 (k0_pay3 x0 (row0 x1) (row1 x1) (row2 x1)) := by
  unfold out0_A_3
  rw [View.read_writes_eq_canon _ _ _ (cover0_A_3 c i arg2 harg2 arg3 harg3 arg4 harg4 arg5 harg5 arg6 harg6 hc0 hc1 x0 x1)]
  unfold kernelRun0_A
  dsimp only
  sl_unfold_words
  rw [View.canon_unit_zero zero3]
  simp only [View.readAt_eq_ld, harg2.read_unread, harg3.read_unread,
    View.ld_unit_zero (S := S1024x3) zero2]

/-! ## A middle point: the old minima against the table's row minima -/

theorem scratch_B (c : Dev nD) (i : grid0.Coords) (arg2 : Memref sig .tc .vmem S1024x3 .f32) (harg2 : arg2.IsWhole) (arg3 : Memref sig .tc .vmem S3x2048 .f32) (harg3 : arg3.IsWhole) (arg4 : Memref sig .tc .vmem S1024x1 .f32) (harg4 : arg4.IsWhole) (arg5 : Memref sig .tc .vmem S1x8x2048 .f32) (harg5 : arg5.IsWhole) (arg6 : Memref sig .tc .vmem S1024x1 .f32) (harg6 : arg6.IsWhole) (hc0 : ¬cond0_0 i) (hc1 : ¬cond0_1 i)
    (x0 : Vec F S1024x3 .f32) (x1 : Vec F S3x2048 .f32) (xs0 : Vec F S1024x1 .f32) :
    sout0_B_0 c i arg2 harg2 arg3 harg3 arg4 harg4 arg5 harg5 arg6 harg6 hc0 hc1 x0 x1 xs0 = k0_pay4 x0 (row0 x1) (row1 x1) (row2 x1) xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero zero2]
  simp only [View.readAt_eq_ld, harg2.read_unread, harg3.read_unread, harg6.read_unread,
    View.ld_unit_zero (S := S1024x3) zero2, View.ld_unit_zero (S := S1024x1) zero2]

theorem out3_B (c : Dev nD) (i : grid0.Coords) (arg2 : Memref sig .tc .vmem S1024x3 .f32) (harg2 : arg2.IsWhole) (arg3 : Memref sig .tc .vmem S3x2048 .f32) (harg3 : arg3.IsWhole) (arg4 : Memref sig .tc .vmem S1024x1 .f32) (harg4 : arg4.IsWhole) (arg5 : Memref sig .tc .vmem S1x8x2048 .f32) (harg5 : arg5.IsWhole) (arg6 : Memref sig .tc .vmem S1024x1 .f32) (harg6 : arg6.IsWhole) (hc0 : ¬cond0_0 i) (hc1 : ¬cond0_1 i)
    (x0 : Vec F S1024x3 .f32) (x1 : Vec F S3x2048 .f32) (xs0 : Vec F S1024x1 .f32) :
    out0_B_3 c i arg2 harg2 arg3 harg3 arg4 harg4 arg5 harg5 arg6 harg6 hc0 hc1 x0 x1 xs0 = k0_pay1 (k0_pay3 x0 (row0 x1) (row1 x1) (row2 x1)) := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  sl_unfold_words
  rw [View.canon_unit_zero zero3]
  simp only [View.readAt_eq_ld, harg2.read_unread, harg3.read_unread,
    View.ld_unit_zero (S := S1024x3) zero2]

/-! ## The last point of a row of the grid: the same, and the scratch column copied to the first output -/

theorem scratch_C (c : Dev nD) (i : grid0.Coords) (arg2 : Memref sig .tc .vmem S1024x3 .f32) (harg2 : arg2.IsWhole) (arg3 : Memref sig .tc .vmem S3x2048 .f32) (harg3 : arg3.IsWhole) (arg4 : Memref sig .tc .vmem S1024x1 .f32) (harg4 : arg4.IsWhole) (arg5 : Memref sig .tc .vmem S1x8x2048 .f32) (harg5 : arg5.IsWhole) (arg6 : Memref sig .tc .vmem S1024x1 .f32) (harg6 : arg6.IsWhole) (hc0 : ¬cond0_0 i) (hc1 : cond0_1 i)
    (x0 : Vec F S1024x3 .f32) (x1 : Vec F S3x2048 .f32) (xs0 : Vec F S1024x1 .f32) :
    sout0_C_0 c i arg2 harg2 arg3 harg3 arg4 harg4 arg5 harg5 arg6 harg6 hc0 hc1 x0 x1 xs0 = k0_pay4 x0 (row0 x1) (row1 x1) (row2 x1) xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero zero2]
  simp only [View.readAt_eq_ld, harg2.read_unread, harg3.read_unread, harg6.read_unread,
    View.ld_unit_zero (S := S1024x3) zero2, View.ld_unit_zero (S := S1024x1) zero2]

theorem out2_C (c : Dev nD) (i : grid0.Coords) (arg2 : Memref sig .tc .vmem S1024x3 .f32) (harg2 : arg2.IsWhole) (arg3 : Memref sig .tc .vmem S3x2048 .f32) (harg3 : arg3.IsWhole) (arg4 : Memref sig .tc .vmem S1024x1 .f32) (harg4 : arg4.IsWhole) (arg5 : Memref sig .tc .vmem S1x8x2048 .f32) (harg5 : arg5.IsWhole) (arg6 : Memref sig .tc .vmem S1024x1 .f32) (harg6 : arg6.IsWhole) (hc0 : ¬cond0_0 i) (hc1 : cond0_1 i)
    (x0 : Vec F S1024x3 .f32) (x1 : Vec F S3x2048 .f32) (xs0 : Vec F S1024x1 .f32) :
    out0_C_2 c i arg2 harg2 arg3 harg3 arg4 harg4 arg5 harg5 arg6 harg6 hc0 hc1 x0 x1 xs0 = k0_pay4 x0 (row0 x1) (row1 x1) (row2 x1) xs0 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero zero2, View.readCov_unit_zero (S := S1024x1) _ zero2]
  simp only [View.readAt_eq_ld, harg2.read_unread, harg3.read_unread, harg6.read_unread,
    View.ld_unit_zero (S := S1024x3) zero2, View.ld_unit_zero (S := S1024x1) zero2]

theorem out3_C (c : Dev nD) (i : grid0.Coords) (arg2 : Memref sig .tc .vmem S1024x3 .f32) (harg2 : arg2.IsWhole) (arg3 : Memref sig .tc .vmem S3x2048 .f32) (harg3 : arg3.IsWhole) (arg4 : Memref sig .tc .vmem S1024x1 .f32) (harg4 : arg4.IsWhole) (arg5 : Memref sig .tc .vmem S1x8x2048 .f32) (harg5 : arg5.IsWhole) (arg6 : Memref sig .tc .vmem S1024x1 .f32) (harg6 : arg6.IsWhole) (hc0 : ¬cond0_0 i) (hc1 : cond0_1 i)
    (x0 : Vec F S1024x3 .f32) (x1 : Vec F S3x2048 .f32) (xs0 : Vec F S1024x1 .f32) :
    out0_C_3 c i arg2 harg2 arg3 harg3 arg4 harg4 arg5 harg5 arg6 harg6 hc0 hc1 x0 x1 xs0 = k0_pay1 (k0_pay3 x0 (row0 x1) (row1 x1) (row2 x1)) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero zero3]
  simp only [View.readAt_eq_ld, harg2.read_unread, harg3.read_unread,
    View.ld_unit_zero (S := S1024x3) zero2]

end Chamfer.Pieces

end
-- ==== Proof.KInvariant.lean ====
/-
  What the staging buffers and the scratch column hold after each grid point.

  Write s and t for the two clouds.  Grid point number n stands for block row n / 8 and block column n mod 8.  After
  point n the scratch column holds, in row p, the least distance from point (n / 8) * 1024 + p of s to the points of t
  below ((n mod 8) + 1) * 2048: the points of a block row are visited left to right, the minima start from plus
  infinity at the first of them, and each point takes in its own run of 2048 columns.  The second output holds at
  column q the least distance to point (n mod 8) * 2048 + q of t over the 1024 points of s of the block row.  After
  the last point of a block row every column has been taken in, and the first output receives the minima over all of t.
-/
import proofs.«143616_j31696858644903_2_alg».proof.Proof.Gen.KernelIdeal.Frame
import proofs.«143616_j31696858644903_2_alg».proof.Proof.Spec
import proofs.«143616_j31696858644903_2_alg».proof.Proof.KPay
import proofs.«143616_j31696858644903_2_alg».proof.Proof.KPieces
import proofs.«143616_j31696858644903_2_alg».proof.Proof.KBlocks

noncomputable section

namespace Chamfer.Inv

open Idealize.ShloMosaic Idealize.ShloMosaic.TcCoe Idealize.ShloMosaic.ValueIdx Idealize.SL.Sem
open Cert.KernelIdeal Cert.KernelIdeal.Gen
open Chamfer Chamfer.Blocks Chamfer.Pieces Chamfer.Pay

variable (m : (ℓ : Loc nD τ sig) → Buf (Elt Ideal) ℓ)

/-- The two clouds, as the program is launched with them. -/
abbrev cloudS (c : Dev nD) : Pts.Idx → EReal := m ((c : Thread nD τ).loc main_arg0)
abbrev cloudT (c : Dev nD) : Pts.Idx → EReal := m ((c : Thread nD τ).loc main_arg1)

/-- The distance table of point t's two blocks holds, at (p, q), the squared distance between the point of s under
    row p and the point of t under column q. -/
theorem table_apply (c : Dev nD) (t : Fin cfg0.N) (p : Fin 1024) (q : Fin 2048) :
    k0_pay3 (iblk m c 0 t) (row0 (iblk m c 1 t)) (row1 (iblk m c 1 t)) (row2 (iblk m c 1 t)) (ix2 p q)
      = dist (cloudS m c) (cloudT m c) (rowOf t p) (colOf t q) := by
  refine (pay3_apply (iblk m c 0 t) (row0 (iblk m c 1 t)) (row1 (iblk m c 1 t)) (row2 (iblk m c 1 t)) p q).trans ?_
  rw [row0_apply, row1_apply, row2_apply,
    iblk0_apply m c t p 0, iblk0_apply m c t p 1, iblk0_apply m c t p 2,
    iblk1_apply m c t 0 q, iblk1_apply m c t 1 q, iblk1_apply m c t 2 q]
  rfl

/-- One step of the running minimum: the old value of row p against the least entry of row p of the table. -/
theorem step_apply (c : Dev nD) (t : Fin cfg0.N) (acc : Vec Ideal S1024x1 .f32) (p : Fin 1024) (u : Fin 1) :
    k0_pay4 (iblk m c 0 t) (row0 (iblk m c 1 t)) (row1 (iblk m c 1 t)) (row2 (iblk m c 1 t)) acc (ix2 p u)
      = min (acc (ix2 p u)) (⨅ q : Fin 2048, dist (cloudS m c) (cloudT m c) (rowOf t p) (colOf t q)) :=
  (pay4_apply (iblk m c 0 t) (row0 (iblk m c 1 t)) (row1 (iblk m c 1 t)) (row2 (iblk m c 1 t)) acc p u).trans
    (congrArg (min (acc (ix2 p u))) (iInf_congr fun q => table_apply m c t p q))

/-- The column minima of the table, in every row of the second output's block. -/
theorem colmin_apply (c : Dev nD) (t : Fin cfg0.N) (z : Fin 1) (r : Fin 8) (q : Fin 2048) :
    k0_pay1 (k0_pay3 (iblk m c 0 t) (row0 (iblk m c 1 t)) (row1 (iblk m c 1 t)) (row2 (iblk m c 1 t))) (ix3 z r q)
      = ⨅ p : Fin 1024, dist (cloudS m c) (cloudT m c) (rowOf t p) (colOf t q) :=
  (pay1_apply _ z r q).trans (iInf_congr fun p => table_apply m c t p q)

/-- The scratch column after point n: in row p, the least distance over the columns taken in so far. -/
theorem scratch_at (c : Dev nD) : ∀ (n : ℕ) (h : n < cfg0.N) (p : Fin 1024) (u : Fin 1),
    (outsAt0 m c n h).2.2 (ix2 p u)
      = partMin (fun j => dist (cloudS m c) (cloudT m c) (rowOf ⟨n, h⟩ p) j) ((n % 8 + 1) * 2048) := by
  intro n
  induction n using Nat.strong_induction_on with
  | _ n ih =>
    intro h p u
    have hN : n < 128 := point_lt ⟨n, h⟩
    by_cases h0 : n % 8 = 0
    · -- the first point of a block row: the minima start from plus infinity
      have h1 : ¬ n % 8 = 7 := by omega
      refine (congrArg (fun x => x.2.2 (ix2 p u)) (outsAt0_A m c ⟨n, h⟩ h0 h1)).trans ?_
      dsimp only
      rw [scratch_A]
      refine (step_apply m c ⟨n, h⟩ _ p u).trans ?_
      rw [pay2_apply, h0]
      have e := partMin_step (fun j => dist (cloudS m c) (cloudT m c) (rowOf ⟨n, h⟩ p) j) 0 (by omega)
      rw [partMin_zero] at e
      refine Eq.trans ?_ e.symm
      refine congrArg (min ⊤) (iInf_congr fun q => congrArg _ (Fin.ext ?_))
      show n % 8 * 2048 + q.val = 0 * 2048 + q.val
      rw [h0]
    · -- a later point of the block row: the point before is in the same block row
      have hpos : 0 < n := by omega
      have hprev : n - 1 < cfg0.N := lt_of_le_of_lt (Nat.sub_le _ _) h
      have erow : rowOf ⟨n - 1, hprev⟩ p = rowOf ⟨n, h⟩ p :=
        Fin.ext (by show (n - 1) / 8 * 1024 + p.val = n / 8 * 1024 + p.val; omega)
      have ecnt : (n - 1) % 8 + 1 = n % 8 := by omega
      have ih' := ih (n - 1) (by omega) hprev p u
      rw [erow, ecnt] at ih'
      have estep := partMin_step (fun j => dist (cloudS m c) (cloudT m c) (rowOf ⟨n, h⟩ p) j) (n % 8) (by omega)
      by_cases h1 : n % 8 = 7
      · refine (congrArg (fun x => x.2.2 (ix2 p u)) (outsAt0_C m c ⟨n, h⟩ h0 h1)).trans ?_
        dsimp only
        rw [scratch_C]
        refine (step_apply m c ⟨n, h⟩ _ p u).trans ?_
        rw [ih']
        exact estep.symm
      · refine (congrArg (fun x => x.2.2 (ix2 p u)) (outsAt0_B m c ⟨n, h⟩ h0 h1)).trans ?_
        dsimp only
        rw [scratch_B]
        refine (step_apply m c ⟨n, h⟩ _ p u).trans ?_
        rw [ih']
        exact estep.symm

/-- The second output's block after point t: at column q, in every row, the least distance over the block row's points. -/
theorem out3_at (c : Dev nD) (t : Fin cfg0.N) (z : Fin 1) (r : Fin 8) (q : Fin 2048) :
    (outsAt0 m c t.val t.isLt).2.1 (ix3 z r q)
      = ⨅ p : Fin 1024, dist (cloudS m c) (cloudT m c) (rowOf t p) (colOf t q) := by
  by_cases h0 : t.val % 8 = 0
  · have h1 : ¬ t.val % 8 = 7 := by omega
    refine (congrArg (fun x => x.2.1 (ix3 z r q)) (outsAt0_A m c t h0 h1)).trans ?_
    dsimp only
    rw [out3_A]
    exact colmin_apply m c t z r q
  · by_cases h1 : t.val % 8 = 7
    · refine (congrArg (fun x => x.2.1 (ix3 z r q)) (outsAt0_C m c t h0 h1)).trans ?_
      dsimp only
      rw [out3_C]
      exact colmin_apply m c t z r q
    · refine (congrArg (fun x => x.2.1 (ix3 z r q)) (outsAt0_B m c t h0 h1)).trans ?_
      dsimp only
      rw [out3_B]
      exact colmin_apply m c t z r q

/-- The first output's block after the last point of a block row: in row p, the least distance to any point of t. -/
theorem out2_at (c : Dev nD) (t : Fin cfg0.N) (h7 : t.val % 8 = 7) (p : Fin 1024) (u : Fin 1) :
    (outsAt0 m c t.val t.isLt).1 (ix2 p u)
      = ⨅ j : Fin 16384, dist (cloudS m c) (cloudT m c) (rowOf t p) j := by
  obtain ⟨n, h⟩ := t
  have h7' : n % 8 = 7 := h7
  have h0 : ¬ n % 8 = 0 := by omega
  have hprev : n - 1 < cfg0.N := lt_of_le_of_lt (Nat.sub_le _ _) h
  have erow : rowOf ⟨n - 1, hprev⟩ p = rowOf ⟨n, h⟩ p :=
    Fin.ext (by show (n - 1) / 8 * 1024 + p.val = n / 8 * 1024 + p.val; omega)
  have ecnt : (n - 1) % 8 + 1 = n % 8 := by omega
  have ih' := scratch_at m c (n - 1) hprev p u
  rw [erow, ecnt] at ih'
  have estep := partMin_step (fun j => dist (cloudS m c) (cloudT m c) (rowOf ⟨n, h⟩ p) j) (n % 8) (by omega)
  refine (congrArg (fun x => x.1 (ix2 p u)) (outsAt0_C m c ⟨n, h⟩ h0 h7')).trans ?_
  dsimp only
  rw [out2_C]
  refine (step_apply m c ⟨n, h⟩ _ p u).trans ?_
  rw [ih']
  refine estep.symm.trans ?_
  rw [h7']
  exact partMin_full _

end Chamfer.Inv

end
-- ==== Proof.KFinal2.lean ====
/-
  The first output array after the whole grid has run.

  It is written back only after the last point of each block row, when its block holds the minima over all of t; the
  sixteen blocks tile the array, so row i ends at the least distance from point i of s to any point of t.
-/
import proofs.«143616_j31696858644903_2_alg».proof.Proof.Gen.KernelIdeal.Frame
import proofs.«143616_j31696858644903_2_alg».proof.Proof.Spec
import proofs.«143616_j31696858644903_2_alg».proof.Proof.KBlocks
import proofs.«143616_j31696858644903_2_alg».proof.Proof.KInvariant
import Idealize.ShloMosaic.Lib.Pipeline.Value

noncomputable section

namespace Chamfer.Final2

open Idealize.ShloMosaic Idealize.ShloMosaic.TcCoe Idealize.ShloMosaic.ValueIdx Idealize.SL.Sem
open Idealize.ShloMosaic.Pipeline (Dat)
open Cert.KernelIdeal Cert.KernelIdeal.Gen
open Chamfer Chamfer.Blocks Chamfer.Inv

variable (m : (ℓ : Loc nD τ sig) → Buf (Elt Ideal) ℓ)

/-- The first output array as one function of its index: in row i, the least distance from point i of s to any
    point of t. -/
def rowMin (c : Dev nD) : FVec Ideal S16384x1 .f32 :=
  fun idx => ⨅ j : Fin 16384, dist (cloudS m c) (cloudT m c) ⟨(idx 0).val, (idx 0).isLt⟩ j

/-- What the last point of a block row writes back is its block of that function: row p of the block of point t is
    row (t / 8) * 1024 + p of the array. -/
theorem flushed_rowMin (c : Dev nD) (t : Fin cfg0.N) (hf : (cfg0.win 2).flush t = true) :
    (dats m 0 c).flushed 2 t = ((cfg0.win 2).blk t).view.read (Elt Ideal) (rowMin m c) := by
  have h7 : t.val % 8 = 7 := (flush0_2 t).mp hf
  show (cfg0.win 2).cut (grid0.coords t) ((dats m 0 c).after 2 t) = _
  rw [after0_2]
  funext y
  obtain ⟨p, u, rfl⟩ : ∃ (p : Fin 1024) (u : Fin 1), y = ix2 p u := ⟨y 0, y 1, eq_ix2 y⟩
  rw [View.read_apply]
  show (outsAt0 m c t.val t.isLt).1 (ix2 p u) = rowMin m c (((cfg0.win 2).blk t).view.emb (ix2 p u))
  rw [out2_at m c t h7 p u]
  unfold rowMin
  refine iInf_congr fun j => congrArg (fun r => dist (cloudS m c) (cloudT m c) r j) (Fin.ext ?_)
  show t.val / 8 * 1024 + p.val = win0_2.index t 0 * 1024 + 1 * p.val
  rw [(index2 t).1]
  omega

/-- Row i of the array lies in the block of the last point of block row i / 1024. -/
theorem rows_covered (i : S16384x1.Idx) :
    ∃ t : Fin cfg0.N, (cfg0.win 2).flush t = true ∧ i ∈ ((cfg0.win 2).blk t).view.set := by
  have h0 : (i 0 : Nat) < 16384 := (i 0).isLt
  have h1 : (i 1 : Nat) < 1 := (i 1).isLt
  have hN : cfg0.N = 128 := N_0
  obtain ⟨t, ht⟩ : ∃ t : Fin cfg0.N, t.val = (i 0 : Nat) / 1024 * 8 + 7 := ⟨⟨(i 0 : Nat) / 1024 * 8 + 7, by rw [hN]; omega⟩, rfl⟩
  refine ⟨t, (flush0_2 t).mpr (by omega), ?_⟩
  show i ∈ ((View.whole main_v1_0).slice (win0_2.rect t)).set
  rw [View.set_slice_whole, Rect.mem_set_unit]
  intro a
  obtain ⟨e0, e1⟩ := index2 t
  match a with
  | ⟨0, _⟩ =>
    show win0_2.index t 0 * 1024 ≤ (i 0 : Nat) ∧ (i 0 : Nat) < win0_2.index t 0 * 1024 + 1024
    rw [e0]; omega
  | ⟨1, _⟩ =>
    show win0_2.index t 1 * 1 ≤ (i 1 : Nat) ∧ (i 1 : Nat) < win0_2.index t 1 * 1 + 1
    rw [e1]; omega

/-- The first output array after the run: row i holds the least distance from point i of s to any point of t. -/
theorem final2 (c : Dev nD) (i : Fin 16384) (u : Fin 1) :
    ((dats m 0 c).arrAt 2 cfg0.N : FVec Ideal S16384x1 .f32) (ix2 i u)
      = ⨅ j : Fin 16384, dist (cloudS m c) (cloudT m c) i j := by
  exact congrFun ((dats m 0 c).arrAt_eq_of_cover 2 (rowMin m c) (flushed_rowMin m c) rows_covered) (ix2 i u)

end Chamfer.Final2

end
-- ==== Proof.KFinal3.lean ====
/-
  The second output array after the whole grid has run.

  It is written back after every point; block (b, c) of it holds, in each of its eight rows, the least distance to each
  of its 2048 points of t over the 1024 points of s of block row b, and the 128 blocks tile the array.
-/
import proofs.«143616_j31696858644903_2_alg».proof.Proof.Gen.KernelIdeal.Frame
import proofs.«143616_j31696858644903_2_alg».proof.Proof.Spec
import proofs.«143616_j31696858644903_2_alg».proof.Proof.KBlocks
import proofs.«143616_j31696858644903_2_alg».proof.Proof.KInvariant
import Idealize.ShloMosaic.Lib.Pipeline.Value

noncomputable section

namespace Chamfer.Final3

open Idealize.ShloMosaic Idealize.ShloMosaic.TcCoe Idealize.ShloMosaic.ValueIdx Idealize.SL.Sem
open Idealize.ShloMosaic.Pipeline (Dat)
open Cert.KernelIdeal Cert.KernelIdeal.Gen
open Chamfer Chamfer.Blocks Chamfer.Inv

variable (m : (ℓ : Loc nD τ sig) → Buf (Elt Ideal) ℓ)

/-- What the array ends holding, as one function of its index: at (b, r, j), the least distance to point j of t over the
    1024 points of s of block row b.  The middle coordinate does not enter: the eight rows of a block row are equal. -/
def colMin (S T : Pts.Idx → EReal) : S16x8x16384.Idx → EReal := fun idx =>
  ⨅ p : Fin 1024, dist S T
    ⟨(idx 0).val * 1024 + p.val, by have h : (idx 0).val < 16 := (idx 0).isLt; have := p.isLt; omega⟩
    ⟨(idx 2).val, (idx 2).isLt⟩

/-- What point t writes back is its block of that function: element (z, r, q) of the block sits at block row t / 8 and
    at column (t mod 8) * 2048 + q of the array, the row and the column the block's own minima are taken at. -/
theorem flushed_colMin (c : Dev nD) (t : Fin cfg0.N) :
    (dats m 0 c).flushed 3 t = ((cfg0.win 3).blk t).view.read (Elt Ideal) (colMin (cloudS m c) (cloudT m c)) := by
  funext y
  obtain ⟨z, r, q, rfl⟩ : ∃ (z : Fin 1) (r : Fin 8) (q : Fin 2048), y = ix3 z r q := ⟨y 0, y 1, y 2, eq_ix3 y⟩
  rw [View.read_apply]
  show (cfg0.win 3).cut (grid0.coords t) ((dats m 0 c).after 3 t) (ix3 z r q)
    = colMin (cloudS m c) (cloudT m c) (((cfg0.win 3).blk t).view.emb (ix3 z r q))
  rw [after0_3]
  refine (out3_at m c t z r q).trans ?_
  have e0 : ((((cfg0.win 3).blk t).view.emb (ix3 z r q)) 0).val = t.val / 8 := by
    show win0_3.index t 0 * 1 + 1 * z.val = t.val / 8
    rw [(index3 t).1]; have := z.isLt; omega
  have e2 : ((((cfg0.win 3).blk t).view.emb (ix3 z r q)) 2).val = t.val % 8 * 2048 + q.val := by
    show win0_3.index t 2 * 2048 + 1 * q.val = t.val % 8 * 2048 + q.val
    rw [(index3 t).2.2]; omega
  unfold colMin
  refine iInf_congr fun p => ?_
  exact congrArg₂ (dist (cloudS m c) (cloudT m c))
    (Fin.ext (by show t.val / 8 * 1024 + p.val = _ * 1024 + p.val; rw [e0]))
    (Fin.ext (by show t.val % 8 * 2048 + q.val = _; rw [e2]))

/-- Every index of the array is in some point's block: (b, r, j) is in the block of point b * 8 + j / 2048. -/
theorem columns_covered (i : S16x8x16384.Idx) :
    ∃ t : Fin cfg0.N, (cfg0.win 3).flush t = true ∧ i ∈ ((cfg0.win 3).blk t).view.set := by
  have h0 : (i 0 : Nat) < 16 := (i 0).isLt
  have h1 : (i 1 : Nat) < 8 := (i 1).isLt
  have h2 : (i 2 : Nat) < 16384 := (i 2).isLt
  have hN : cfg0.N = 128 := N_0
  obtain ⟨t, tv⟩ : ∃ t : Fin cfg0.N, t.val = (i 0).val * 8 + (i 2).val / 2048 :=
    ⟨⟨(i 0).val * 8 + (i 2).val / 2048, by rw [hN]; omega⟩, rfl⟩
  refine ⟨t, flush0_3 t, ?_⟩
  show i ∈ ((View.whole main_v1_1).slice (win0_3.rect t)).set
  rw [View.set_slice_whole, Rect.mem_set_unit]
  intro a
  obtain ⟨i0, i1, i2⟩ := index3 t
  match a with
  | ⟨0, _⟩ =>
    show win0_3.index t 0 * 1 ≤ (i 0 : Nat) ∧ (i 0 : Nat) < win0_3.index t 0 * 1 + 1
    rw [i0, tv]; omega
  | ⟨1, _⟩ =>
    show win0_3.index t 1 * 8 ≤ (i 1 : Nat) ∧ (i 1 : Nat) < win0_3.index t 1 * 8 + 8
    rw [i1]; omega
  | ⟨2, _⟩ =>
    show win0_3.index t 2 * 2048 ≤ (i 2 : Nat) ∧ (i 2 : Nat) < win0_3.index t 2 * 2048 + 2048
    rw [i2, tv]; omega

/-- The second output array after the run: block row b holds, in each of its eight rows, at column j, the least
    distance to point j of t over the 1024 points of s of the block row. -/
theorem final3 (c : Dev nD) (b : Fin 16) (r : Fin 8) (j : Fin 16384) :
    ((dats m 0 c).arrAt 3 cfg0.N : FVec Ideal S16x8x16384 .f32) (ix3 b r j)
      = ⨅ p : Fin 1024, dist (cloudS m c) (cloudT m c)
          ⟨b.val * 1024 + p.val, by have := b.isLt; have := p.isLt; omega⟩ j := by
  exact congrFun ((dats m 0 c).arrAt_eq_of_cover 3 (colMin (cloudS m c) (cloudT m c))
    (fun t _ => flushed_colMin m c t) columns_covered) (ix3 b r j)

end Chamfer.Final3

end
-- ==== Proof.KTail.lean ====
/-
  After the tiled computation the program finishes on the whole arrays: from the column minima kept per block of rows
  it takes row 0 of each block and the least over the sixteen blocks, sums each of the two families of minima, divides
  each sum by the count, adds the two means and halves the sum.
-/
import proofs.«143616_j31696858644903_2_alg».proof.Proof.Gen.KernelIdeal.Frame
import proofs.«143616_j31696858644903_2_alg».proof.Proof.Spec
import proofs.«143616_j31696858644903_2_alg».proof.Proof.LibRealEntry
import Idealize.ShloMosaic.Lib.Pipeline.Value
import Idealize.ShloMosaic.Lib.ValueLayout
import Idealize.ShloMosaic.Lib.StableHlo.Run

noncomputable section

namespace Chamfer.Tail

open Idealize.ShloMosaic Idealize.ShloMosaic.ValueIdx Idealize.ShloMosaic.TcCoe Idealize.SL.Sem
open Cert.KernelIdeal Cert.KernelIdeal.Gen

variable {F : FTy → Type} [FloatOps F]

/-- The closing operations, as one function of the two arrays the tiled computation leaves: the per-point row minima
    o1 of shape [16384, 1] and the per-block column minima o2 of shape [16, 8, 16384]. -/
def tailFn (o1 : FVec F S16384x1 .f32) (o2 : FVec F S16x8x16384 .f32) : FVec F S_ .f32 :=
  Host.divf
    (addf
      (Host.divf (Host.reduceAdd o1 (constant (F := F) S_ .f32 0x00000000#32) reducesTo_S16384x1_S_d0_1 h_S_)
        (constant (F := F) S_ .f32 0x46800000#32))
      (Host.divf
        (Host.reduceAdd
          (Host.reduce FloatOps.minimumf
            (shapeCast S16x16384 (extractStridedSlice S16x1x16384 ![0, 0, 0] o2 slices_S16x8x16384_S16x1x16384_0_0_0)
              shapeCasts_S16x1x16384_S16x16384)
            (constant (F := F) S_ .f32 0x7F800000#32) reducesTo_S16x16384_S16384_d0 h_S_)
          (constant (F := F) S_ .f32 0x00000000#32) reducesTo_S16384_S_d0 h_S_)
        (constant (F := F) S_ .f32 0x46800000#32)))
    (constant (F := F) S_ .f32 0x40000000#32)

/-- What the program's result holds after the run: the closing operations applied to the two output arrays as the
    tiled computation left them. -/
theorem tail_eq (m : (ℓ : Loc nD τ sig) → Buf (Elt F) ℓ) (c : Dev nD) :
    Pipeline.afterTail₀ cfgs (dats m) 0 (V0 m) [hostOps1] c main_v10
      = tailFn ((dats m 0 c).arrAt 2 cfg0.N) ((dats m 0 c).arrAt 3 cfg0.N) := by
  have e2 : Pipeline.withArrays (cfgs 0).spec c (V0 m c) (fun w => (dats m 0 c).arrAt w (cfgs 0).N)
      (Proc.devRef .tc main_v1_0) = (dats m 0 c).arrAt 2 cfg0.N :=
    Pipeline.withArrays_arr spec0 launch0.win.arr_inj c _ _ 2
  have e3 : Pipeline.withArrays (cfgs 0).spec c (V0 m c) (fun w => (dats m 0 c).arrAt w (cfgs 0).N)
      (Proc.devRef .tc main_v1_1) = (dats m 0 c).arrAt 3 cfg0.N :=
    Pipeline.withArrays_arr spec0 launch0.win.arr_inj c _ _ 3
  unfold Pipeline.afterTail₀
  show StableHlo.after hostOps1 _ (Proc.devRef .tc main_v10) = _
  after_results
  rw [e2, e3]
  generalize (dats m 0 c).arrAt 2 cfg0.N = o1
  generalize (dats m 0 c).arrAt 3 cfg0.N = o2
  unfold tailFn
  rfl

/-- The sum of a one-column array over all its indices is the sum over its rows. -/
private theorem sum_col (o1 : S16384x1.Idx → EReal) (f : Fin 16384 → EReal)
    (h1 : ∀ (i : Fin 16384) (u : Fin 1), o1 (ix2 i u) = f i) :
    ∑ x : S16384x1.Idx, o1 x = ∑ i : Fin 16384, f i := by
  rw [ValueIdx.sum_idx2]
  refine Finset.sum_congr rfl fun i _ => ?_
  rw [Fin.sum_univ_one]
  exact h1 i 0

/-- The sum of a vector over all its indices is the sum over its one coordinate. -/
private theorem sum_vec (v : S16384.Idx → EReal) : ∑ x : S16384.Idx, v x = ∑ j : Fin 16384, v (ix1 j) := by
  let e : S16384.Idx ≃ Fin 16384 := ⟨fun i => i 0, ix1, fun i => (eq_ix1 i).symm, fun _ => rfl⟩
  exact (Equiv.sum_comp e.symm v).symm

/-- Column j of a [16, 16384] array with row b put back is the entry (b, j). -/
private theorem lift_col (h : S16x16384.Reduces [0] S16384) (j : Fin 16384) (k : Fin (S16x16384.size 0)) :
    h.lift (ix1 j) k = ix2 (⟨k.val, k.isLt⟩ : Fin 16) j := by
  funext c; apply Fin.ext
  fin_cases c <;> rfl

/-- From the top element, the least over the sixteen rows of a [16, 16384] array, column by column. -/
private theorem colMin (X : FVec Ideal S16x16384 .f32) (g : Fin 16 → Fin 16384 → EReal)
    (hX : ∀ b j, X (ix2 b j) = g b j) (j : Fin 16384) :
    Host.reduce FloatOps.minimumf X (constant (F := Ideal) S_ .f32 0x7F800000#32) reducesTo_S16x16384_S16384_d0 h_S_ (ix1 j)
      = ⨅ b : Fin 16, g b j := by
  have hred : S16x16384.Reduces [0] S16384 := by decide
  rw [Host.reduce_eq_fold_single FloatOps.minimumf X _ reducesTo_S16x16384_S16384_d0 hred h_S_]
  have hf : (X ∘ hred.lift (ix1 j)) = fun k : Fin 16 => g k j :=
    funext fun k => (congrArg X (lift_col hred j k)).trans (hX _ j)
  refine (congrArg (fun f => Finset.fold min (Ideal.ofBits .f32 0x7F800000#32) f (Finset.univ : Finset (Fin 16))) hf).trans ?_
  rw [Cert.LibRealEntry.ofBits_inf]
  exact Chamfer.fold_min_top fun k : Fin 16 => g k j

/-- Row 0 of each block of eight rows, the unit axis dropped: the [16, 16384] array reads (b, j) at the entry
    (b, 0, j) of the [16, 8, 16384] array. -/
private theorem rows0_apply {α : Type} (o2 : S16x8x16384.Idx → α) (b : Fin 16) (j : Fin 16384) :
    shapeCast S16x16384 (extractStridedSlice S16x1x16384 ![0, 0, 0] o2 slices_S16x8x16384_S16x1x16384_0_0_0)
      shapeCasts_S16x1x16384_S16x16384 (ix2 b j) = o2 (ix3 b (0 : Fin 8) j) := by
  refine (shapeCast_apply _ shapeCasts_S16x1x16384_S16x16384 (ix2 b j) (ix3 b (0 : Fin 1) j) ?_).trans ?_
  · rw [Shape.rowMajor_val_three, Shape.rowMajor_val_two]
    show (b.val * 1 + 0) * 16384 + j.val = b.val * 16384 + j.val
    omega
  · exact slice3_axis1_apply 0 o2 slices_S16x8x16384_S16x1x16384_0_0_0 b (0 : Fin 1) j (0 : Fin 8) rfl

/-- When o1 holds the least distance from each point of s and o2, in every row of each block, the least distance to
    each point of t over the block's 1024 points of s, the closing operations give the loss. -/
theorem tailFn_eq (s t : Chamfer.Pts.Idx → EReal) (o1 : FVec Ideal S16384x1 .f32) (o2 : FVec Ideal S16x8x16384 .f32)
    (h1 : ∀ (i : Fin 16384) (u : Fin 1), o1 (ix2 i u) = ⨅ j : Fin 16384, Chamfer.dist s t i j)
    (h2 : ∀ (b : Fin 16) (r : Fin 8) (j : Fin 16384), o2 (ix3 b r j)
      = ⨅ p : Fin 1024, Chamfer.dist s t ⟨b.val * 1024 + p.val, by have := b.isLt; have := p.isLt; omega⟩ j) :
    tailFn (F := Ideal) o1 o2 = fun _ => Chamfer.loss s t := by
  funext x
  -- the first mean's sum: the row minima, one per point of s
  have hA : Host.reduceAdd o1 (constant (F := Ideal) S_ .f32 0x00000000#32) reducesTo_S16384x1_S_d0_1 h_S_ x
      = Chamfer.zeroC + ∑ i : Fin 16384, ⨅ j : Fin 16384, Chamfer.dist s t i j := by
    simp only [Host.reduceAdd, Ideal.hostReduceAdd_def]
    refine (Ideal.hostReduceAdd_total reducesTo_S16384x1_S_d0_1 (fun b => b.elim0) o1 _ x).trans ?_
    exact congrArg (fun v => Chamfer.zeroC + v) (sum_col o1 _ h1)
  -- the least over the sixteen blocks, per point of t
  have hM : ∀ j : Fin 16384,
      Host.reduce FloatOps.minimumf
        (shapeCast S16x16384 (extractStridedSlice S16x1x16384 ![0, 0, 0] o2 slices_S16x8x16384_S16x1x16384_0_0_0)
          shapeCasts_S16x1x16384_S16x16384)
        (constant (F := Ideal) S_ .f32 0x7F800000#32) reducesTo_S16x16384_S16384_d0 h_S_ (ix1 j)
      = ⨅ i : Fin 16384, Chamfer.dist s t i j := by
    intro j
    refine (colMin _ (fun b j => ⨅ p : Fin 1024,
      Chamfer.dist s t ⟨b.val * 1024 + p.val, by have := b.isLt; have := p.isLt; omega⟩ j)
      (fun b j => (rows0_apply o2 b j).trans (h2 b 0 j)) j).trans ?_
    exact Chamfer.iInf_runs16 fun i => Chamfer.dist s t i j
  -- the second mean's sum
  have hB : Host.reduceAdd
        (Host.reduce FloatOps.minimumf
          (shapeCast S16x16384 (extractStridedSlice S16x1x16384 ![0, 0, 0] o2 slices_S16x8x16384_S16x1x16384_0_0_0)
            shapeCasts_S16x1x16384_S16x16384)
          (constant (F := Ideal) S_ .f32 0x7F800000#32) reducesTo_S16x16384_S16384_d0 h_S_)
        (constant (F := Ideal) S_ .f32 0x00000000#32) reducesTo_S16384_S_d0 h_S_ x
      = Chamfer.zeroC + ∑ j : Fin 16384, ⨅ i : Fin 16384, Chamfer.dist s t i j := by
    simp only [Host.reduceAdd, Ideal.hostReduceAdd_def]
    refine (Ideal.hostReduceAdd_total reducesTo_S16384_S_d0 (fun b => b.elim0) _ _ x).trans ?_
    refine congrArg (fun v => Chamfer.zeroC + v) ?_
    rw [sum_vec]
    exact Finset.sum_congr rfl fun j _ => hM j
  unfold tailFn Chamfer.loss Chamfer.mean
  show Ideal.div (Ideal.div _ _ + Ideal.div _ _) _ = _
  rw [hA, hB]
  rfl

end Chamfer.Tail

end
-- ==== Proof.KRun.lean ====
/-
  The kernel program's run, read as a value: every execution ends with the result at the loss of the two clouds it was
  launched with, computed over the sum-of-squared-differences distance, and with the two clouds unchanged.

  The tiled computation leaves the row minima and the per-block column minima in its two output arrays; the closing
  operations on the whole arrays turn them into the loss.  The two facts about the output arrays are taken here as
  hypotheses, so that this module stands apart from the modules that prove them.
-/
import proofs.«143616_j31696858644903_2_alg».proof.Proof.Gen.KernelIdeal.Frame
import proofs.«143616_j31696858644903_2_alg».proof.Proof.Spec
import proofs.«143616_j31696858644903_2_alg».proof.Proof.KInvariant
import proofs.«143616_j31696858644903_2_alg».proof.Proof.KTail

noncomputable section

namespace Chamfer.Run

open Idealize.ShloMosaic Idealize.ShloMosaic.TcCoe Idealize.ShloMosaic.ValueIdx Idealize.SL.Sem
open Idealize.ShloMosaic.Pipeline (Dat)
open Cert.KernelIdeal Cert.KernelIdeal.Gen
open Chamfer Chamfer.Inv

variable (m : (ℓ : Loc nD τ sig) → Buf (Elt Ideal) ℓ) (ρ : Dev nD → PrngReg)

/-- The program's result after the run, from what the two output arrays hold. -/
theorem result_eq (c : Dev nD)
    (h2 : ∀ (i : Fin 16384) (u : Fin 1), ((dats m 0 c).arrAt 2 cfg0.N : FVec Ideal S16384x1 .f32) (ix2 i u)
      = ⨅ j : Fin 16384, dist (cloudS m c) (cloudT m c) i j)
    (h3 : ∀ (b : Fin 16) (r : Fin 8) (j : Fin 16384), ((dats m 0 c).arrAt 3 cfg0.N : FVec Ideal S16x8x16384 .f32) (ix3 b r j)
      = ⨅ p : Fin 1024, dist (cloudS m c) (cloudT m c)
          ⟨b.val * 1024 + p.val, by have := b.isLt; have := p.isLt; omega⟩ j) :
    Pipeline.afterTail₀ cfgs (dats m) 0 (V0 m) [hostOps1] c main_v10
      = fun _ => loss (cloudS m c) (cloudT m c) :=
  (Chamfer.Tail.tail_eq m c).trans (Chamfer.Tail.tailFn_eq (cloudS m c) (cloudT m c) _ _ h2 h3)

/-- Every execution of the program ends with the result at the loss and the two clouds unchanged. -/
theorem run
    (h2 : ∀ (c : Dev nD) (i : Fin 16384) (u : Fin 1), ((dats m 0 c).arrAt 2 cfg0.N : FVec Ideal S16384x1 .f32) (ix2 i u)
      = ⨅ j : Fin 16384, dist (cloudS m c) (cloudT m c) i j)
    (h3 : ∀ (c : Dev nD) (b : Fin 16) (r : Fin 8) (j : Fin 16384),
      ((dats m 0 c).arrAt 3 cfg0.N : FVec Ideal S16x8x16384 .f32) (ix3 b r j)
      = ⨅ p : Fin 1024, dist (cloudS m c) (cloudT m c)
          ⟨b.val * 1024 + p.val, by have := b.isLt; have := p.isLt; omega⟩ j) :
    θ_run (defs (F := Ideal)) (onTc (τ := τ) (main (F := Ideal))) ⟨m, fun _ => 0, ρ⟩ (fun r => ∀ c : Dev nD,
      r.2.mem ((c.tc : Thread nD τ).loc main_v10) = (fun _ => loss (cloudS m c) (cloudT m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v10 (Pipeline.mem_restRefs_of main_v10 (by decide) (by decide))).trans
        (result_eq m c (h2 c) (h3 c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Chamfer.Run

end
-- ==== Proof.lean ====
/-
  The certificate of a fused bidirectional nearest-neighbour distance between two clouds s, t of 16384 points in
  three coordinates.

  The kernel tiles the 16384 by 16384 table of squared distances, each entry the sum of the three squared coordinate
  differences, into 16 by 8 blocks of 1024 by 2048 entries.  For each block it takes the row minima, which it
  accumulates across a block row in a scratch column starting from plus infinity, and the column minima, which it
  writes out per block; the rest of the program takes the least of the sixteen column minima per point of t, the means
  of the two families of minima, and half their sum.  The reference computes each squared distance as the two squared
  norms minus twice the inner product, takes the minima along the rows of the whole table, once for each direction,
  the means, and half their sum.

  On the extended reals the two programs agree when every entry of both clouds is a real number, which is what the
  precondition says: then (a - b)^2 = a^2 + b^2 - 2ab coordinate by coordinate, so the two tables are one, and a
  least value over all indices is the least of the least values over consecutive runs of indices, so the tiled
  minima are the reference's.  No float operation was rewritten by the idealization, so the claim about it is trivial;
  the three frame claims are the programs' runs with the results forgotten.
-/
import proofs.«143616_j31696858644903_2_alg».proof.Defs
import proofs.«143616_j31696858644903_2_alg».proof.Proof.Gen.Kernel
import proofs.«143616_j31696858644903_2_alg».proof.Proof.Gen.Kernel.Frame
import proofs.«143616_j31696858644903_2_alg».proof.Proof.Gen.KernelIdeal
import proofs.«143616_j31696858644903_2_alg».proof.Proof.Gen.KernelIdeal.Frame
import proofs.«143616_j31696858644903_2_alg».proof.Proof.Gen.ReferenceIdeal
import proofs.«143616_j31696858644903_2_alg».proof.Proof.Gen.ReferenceIdeal.Run
import proofs.«143616_j31696858644903_2_alg».proof.Proof.Gen.ReferenceIdeal.Read
import proofs.«143616_j31696858644903_2_alg».proof.Proof.Gen.Pre_finite_inputs
import proofs.«143616_j31696858644903_2_alg».proof.Proof.Spec
import proofs.«143616_j31696858644903_2_alg».proof.Proof.Finite
import proofs.«143616_j31696858644903_2_alg».proof.Proof.RefSide
import proofs.«143616_j31696858644903_2_alg».proof.Proof.KFinal2
import proofs.«143616_j31696858644903_2_alg».proof.Proof.KFinal3
import proofs.«143616_j31696858644903_2_alg».proof.Proof.KRun
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From clouds that agree and whose entries are real numbers, the kernel program ends at the loss over the
    sum-of-squared-differences distance and the reference at the loss over the norms-and-inner-product distance:
    one number. -/
theorem algebraic : Cert.algebraic_KernelIdeal_ReferenceIdeal := by
  intro m ρ m' ρ' hpre hagree
  refine ⟨fun c => (fun _ => Chamfer.loss (Chamfer.Inv.cloudS m c) (Chamfer.Inv.cloudT m c)),
    Chamfer.Run.run m ρ (Chamfer.Final2.final2 m) (Chamfer.Final3.final3 m), ?_⟩
  refine (θ_run Cert.ReferenceIdeal.defs _ _).mono (fun _ h c => ⟨(h c).1.trans ?_, (h c).2⟩)
    (Cert.ReferenceIdeal.Value.run (F := Ideal) m' ρ')
  obtain ⟨hs, ht⟩ := Chamfer.Finite.real_of_pre _ _ (hpre c)
  refine (Cert.ReferenceIdeal.Read.val_main_v37_eq (F := Ideal) _ _).trans ?_
  refine (Chamfer.Ref.ref_value _ _).trans ?_
  rw [(hagree c).1, (hagree c).2]
  exact congrArg (fun (v : EReal) => fun _ => v) (Chamfer.lossRef_eq_loss _ _ hs ht)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
